-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S4x512x3 : Shape := ⟨3, ![4, 512, 3]⟩
abbrev S4x1x512 : Shape := ⟨3, ![4, 1, 512]⟩
abbrev S4x1x4096 : Shape := ⟨3, ![4, 1, 4096]⟩
abbrev S4x512 : Shape := ⟨2, ![4, 512]⟩
abbrev S4x4096 : Shape := ⟨2, ![4, 4096]⟩
abbrev S4x512x1 : Shape := ⟨3, ![4, 512, 1]⟩
abbrev S4x512x512 : Shape := ⟨3, ![4, 512, 512]⟩
abbrev S8x4096 : Shape := ⟨2, ![8, 4096]⟩
abbrev S_ : Shape := ⟨0, ![]⟩
abbrev S8 : Shape := ⟨1, ![8]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x1x512, .f32⟩
  | .local _ .vmem, ⟨5, _⟩ => ⟨S4x1x512, .f32⟩
  | .local _ .vmem, ⟨6, _⟩ => ⟨S4x1x4096, .f32⟩
  | .local _ .vmem, ⟨7, _⟩ => ⟨S4x1x4096, .f32⟩
  | .local _ .vmem, ⟨8, _⟩ => ⟨S4x512, .f32⟩
  | .local _ .vmem, ⟨9, _⟩ => ⟨S4x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v49 : BitVec 32 := Scalar.muli arg2 c512_i32
  v49
def k0_off1 (i : grid0.Coords) : Fin 2 → Nat :=
  let c0_14 : Index := 0#32
  let arg2 : BitVec 32 := BitVec.ofNat 32 (i 2).val
  let c512_i32 : BitVec 32 := 512#32
  let v49 : BitVec 32 := Scalar.muli arg2 c512_i32
  let v50 : BitVec 32 := v49
  let v51 : Index := Scalar.indexCast v50
  ![0, v51.toNat]
def k0_cond3 (i : grid0.Coords) : BitVec 1 :=
  let arg2 : BitVec 32 := BitVec.ofNat 32 (i 2).val
  let c7_i32 : BitVec 32 := 7#32
  let v58 : BitVec 1 := Scalar.cmpi .eq arg2 c7_i32
  let v59 : BitVec 32 := Scalar.extui v58
  let c0_i32_16 : BitVec 32 := 0#32
  let v60 : BitVec 1 := Scalar.cmpi .ne v59 c0_i32_16
  v60

def k0_cond4 (i : grid0.Coords) : BitVec 1 :=
  let arg1 : BitVec 32 := BitVec.ofNat 32 (i 1).val
  let c7_i32_17 : BitVec 32 := 7#32
  let v61 : BitVec 1 := Scalar.cmpi .eq arg1 c7_i32_17
  let arg2 : BitVec 32 := BitVec.ofNat 32 (i 2).val
  let c7_i32_18 : BitVec 32 := 7#32
  let v62 : BitVec 1 := Scalar.cmpi .eq arg2 c7_i32_18
  let v63 : BitVec 1 := Scalar.andi v61 v62
  let v64 : BitVec 32 := Scalar.extui v63
  let c0_i32_19 : BitVec 32 := 0#32
  let v65 : BitVec 1 := Scalar.cmpi .ne v64 c0_i32_19
  v65

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  slices_S4x512x3_o0_0_0_S4x512x1 : S4x512x3.Slices ![0, 0, 0] S4x512x1
  shapeCasts_S4x512x1_S4x512 : S4x512x1.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x512x3_o0_0_1_S4x512x1 : S4x512x3.Slices ![0, 0, 1] S4x512x1
  slices_S4x512x3_o0_0_2_S4x512x1 : S4x512x3.Slices ![0, 0, 2] S4x512x1
  reduces_S4x512x512_S4x512 : S4x512x512.Reduces [2] S4x512
  reduces_S4x512x512_S4x512_2 : S4x512x512.Reduces [1] S4x512
  inb_S4x1x512_S4x1x512_0_0_0 : ∀ a, (![0, 0, 0] : Fin 3 → Nat) a + S4x1x512.size a ≤ S4x1x512.size a
  h_S4x1x512 : 0 < S4x1x512.numel
  shapeCasts_S4x1x512_S4x512 : S4x1x512.ShapeCasts S4x512
  inb_S4x1x4096_S4x1x4096_0_0_0 : ∀ a, (![0, 0, 0] : Fin 3 → Nat) a + S4x1x4096.size a ≤ S4x1x4096.size a
  h_S4x1x4096 : 0 < S4x1x4096.numel
  shapeCasts_S4x1x4096_S4x4096 : S4x1x4096.ShapeCasts S4x4096
  shapeCasts_S4x4096_S4x1x4096 : S4x4096.ShapeCasts S4x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  hrank0 : 0 < grid0.rank
  k0_mult1_dvd : ∀ i : grid0.Coords, 512 ∣ (k0_mult1 i).toNat
  k0_off1_inb : ∀ i : grid0.Coords, ∀ a, (k0_off1 i) a + S4x512.size a ≤ S4x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S8x4096x3.size a
  hwx0_0 : ∀ i : grid0.Coords, EltTy.bits .f32 = 32 ∨ (Rect.block (s := S8x4096x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S8x4096x3.size a
  hwx0_1 : ∀ i : grid0.Coords, EltTy.bits .f32 = 32 ∨ (Rect.block (s := S8x4096x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512.size a ≤ S8x1x4096.size a
  hwx0_2 : ∀ i : grid0.Coords, EltTy.bits .f32 = 32 ∨ (Rect.block (s := S8x1x4096) S4x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x4096.size a ≤ S8x1x4096.size a
  hwx0_3 : ∀ i : grid0.Coords, EltTy.bits .f32 = 32 ∨ (Rect.block (s := S8x1x4096) S4x1x4096.size (cc0_transform_3 i) (hinb0_3 i)).WholeWords (EltTy.packing .f32)

variable [Facts₀]

abbrev win0_0 : Pipeline.Window sig grid0 :=
  Pipeline.Window.ofSpec (Memref.whole main_arg1) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.FiniteInputs.lean ====
/-
  The inputs are real numbers.

  The precondition of the certificate says, of each of the two clouds, that every entry has an absolute value strictly
  below the infinity of the format: the conjunction of two conjunctions over all 8 x 4096 x 3 entries. On the extended
  reals the absolute value of an entry `a` is `max a (-a)`, and the infinity of the format is the top element. The two
  infinite extended reals have absolute value top, which is not below top; every other extended real is a real number.
  So the precondition says exactly that every entry of both clouds is a real number, and that is what the algebra of
  the squared distance needs: expanding a square of a difference is a law of the reals that fails at the infinities.
-/
import proofs.«117512_j83442624626996_2_alg».proof.Pre_finite_inputs
import proofs.«117512_j83442624626996_2_alg».proof.Proof.Gen.Pre_finite_inputs
import Idealize.ShloMosaic.Lib.ReduceAll
import Idealize.ShloMosaic.PureOps.Ideal.Laws
import Idealize.ShloMosaic.Lib.ValueIdx

noncomputable section

namespace Chamfer.Finite

open Idealize.ShloMosaic Idealize.ShloMosaic.ValueIdx

/-- A conjunction over all entries has a single result: the shape with no axes has one index. -/
instance : Subsingleton Cert.Pre_finite_inputs.S_.Idx := ⟨fun _ _ => funext fun d => d.elim0⟩

/-- A one-bit word made from a truth value is 1 exactly when the truth value holds. -/
theorem ofBool_one_iff (b : Bool) : BitVec.ofBool b = 1#1 ↔ b = true := by cases b <;> decide

/-- The binary32 pattern with all exponent bits set and nothing else denotes the top of the extended reals. -/
theorem ofBits_inf : Ideal.ofBits .f32 0x7F800000#32 = (⊤ : EReal) := by simp [Ideal.ofBits, Ideal.ieee]

/-- An extended real whose absolute value is strictly below top is a real number: the absolute value of either
    infinity is top. -/
theorem real_of_abs_lt_top (a : EReal) (h : max a (-a) < ⊤) : ∃ r : ℝ, a = (r : EReal) := by
  induction a using EReal.rec with
  | bot => simp at h
  | top => simp at h
  | coe r => exact ⟨r, rfl⟩

/-- One entry: if the comparison "absolute value below the infinity of the format" answers 1, the entry is a real. -/
theorem real_of_cmp (a : EReal)
    (h : Ideal.cmp .olt (max a (-a)) (Ideal.ofBits .f32 0x7F800000#32) = 1#1) : ∃ r : ℝ, a = (r : EReal) := by
  rw [ofBits_inf] at h
  unfold Ideal.cmp at h
  rw [ofBool_one_iff] at h
  exact real_of_abs_lt_top a (of_decide_eq_true h)

/-- If the finiteness predicate answers 1 on two clouds of extended reals, every entry of both is a real number. The
    predicate is the conjunction of two reductions by "and" over all entries; a reduction that answers 1 met a 1 at
    every entry, and a 1 at an entry is the comparison above. -/
theorem real_of_pre [Cert.Pre_finite_inputs.Facts] (x y : (⟨3, ![8, 4096, 3]⟩ : Shape).Idx → EReal)
    (h : Cert.Pre_finite_inputs.fn (F := Ideal) x y = fun _ => 1#1) :
    (∀ i, ∃ r : ℝ, x i = (r : EReal)) ∧ (∀ i, ∃ r : ℝ, y i = (r : EReal)) := by
  have e := congrFun h ix0
  dsimp only [Cert.Pre_finite_inputs.fn] at e
  obtain ⟨hx, hy⟩ := IntOp.andi_eq_one.1 e
  exact ⟨fun i => real_of_cmp (x i) (Host.reduce_andi_all _ _ _ _ ix0 hx i),
         fun i => real_of_cmp (y i) (Host.reduce_andi_all _ _ _ _ ix0 hy i)⟩

/-- The same statement with the shape facts the predicate asks for already supplied: the instance in scope is the proved
    one, so the hypothesis mentions no instance argument. -/
theorem real_of_pre_gen (x y : (⟨3, ![8, 4096, 3]⟩ : Shape).Idx → EReal)
    (h : Cert.Pre_finite_inputs.fn (F := Ideal) x y = fun _ => 1#1) :
    (∀ i, ∃ r : ℝ, x i = (r : EReal)) ∧ (∀ i, ∃ r : ℝ, y i = (r : EReal)) :=
  real_of_pre (x := x) (y := y) h

end Chamfer.Finite

end
-- ==== Proof.LibMinFold.lean ====
/-
  Least values over one axis, at the extended reals: general lemmas.

  * `sqrt_mono`: the root is monotone on every extended real (below zero it is the least element; on `[0, ∞]` it is the real
    root, with `√∞ = ∞`), so any map built from it by clamping and shifting carries the least of finitely many values to
    the least of their images (`Monotone.map_min`): a root may be taken before or after a minimum.
  * `inf_word`: the binary32 word of +∞ is the greatest extended real.
  * `minReduce_single`: a `<minimumf>` reduction of a vector over ONE axis is, at each index of the result, the fold of
    `min` from the accumulator's value over that axis's coordinates, the entries written `src (h.lift j k)`.
  * `le_minReduce`: taken from the word of +∞ it is the least entry, by its universal property — a number is below it
    exactly when it is below every entry along the axis. A running minimum kept across steps is then carried by
    `le_min_iff` alone, with no fold in sight.
-/
import Idealize.ShloMosaic.PureOps.Ideal
import Idealize.ShloMosaic.PureOps.Ideal.Laws

noncomputable section

namespace Idealize.ShloMosaic.MinFold

open Idealize.ShloMosaic

/-- The root is monotone on every extended real: below zero it is the least element, and on `[0, ∞]` it is the real
    root with `√∞ = ∞`. -/
theorem sqrt_mono : Monotone Ideal.sqrt := by
  intro a b hab
  induction a using EReal.rec with
  | bot => simp
  | top => rw [top_le_iff.mp hab]
  | coe r =>
    induction b using EReal.rec with
    | bot => exact absurd hab (by simp)
    | top => simp
    | coe s =>
      have hrs : r ≤ s := EReal.coe_le_coe_iff.mp hab
      simp only [Ideal.sqrt_coe]
      by_cases hr : r < 0
      · simp [hr]
      · have hs : ¬ s < 0 := fun h => hr (lt_of_le_of_lt hrs h)
        simp only [hr, hs, if_false]
        exact EReal.coe_le_coe_iff.mpr (Real.sqrt_le_sqrt hrs)

/-- The binary32 word of +∞ is the greatest extended real. -/
theorem inf_word : Ideal.ofBits .f32 0x7F800000#32 = (⊤ : EReal) := by simp [Ideal.ofBits, Ideal.ieee]

/-- A `<minimumf>` reduction over one axis, read at the extended reals: the fold of `min` from the accumulator's value over
    that axis's coordinates. -/
theorem minReduce_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Below the least of a vector's entries along one axis, taken from +∞, is below each of them. -/
theorem le_minReduce {s t : Shape} {a : Fin s.rank} (src : s.Idx → EReal) (h : s.Reduces [a] t)
    (hφ : FKind.Formats .f32) (hacc : (0x7F800000#32 : BitVec 32) = FKind.minimumf.neutral .f32 hφ) (j : t.Idx) (z : EReal) :
    z ≤ multiReduction (F := Ideal) .minimumf [a] t src 0x7F800000#32 h hφ hacc j
      ↔ ∀ k : Fin (s.size a), z ≤ src (h.lift j k) := by
  rw [minReduce_single, Finset.le_fold_min]
  constructor
  · intro hh k; exact hh.2 k (Finset.mem_univ _)
  · intro hh
    refine ⟨?_, fun k _ => hh k⟩
    show z ≤ Ideal.ofBits .f32 0x7F800000#32
    rw [inf_word]; exact le_top

end Idealize.ShloMosaic.MinFold

end
-- ==== Proof.Spec.lean ====
/-
  Chamfer distance between two clouds of 4096 points in three dimensions, eight batches at once.

  For a batch `b`, a point `i` of `y` and a point `j` of `x`, `sqd x y b i j` is the squared Euclidean distance
  `(y₀ - x₀)² + (y₁ - x₁)² + (y₂ - x₂)²`, the three squares added first to last. `dist s = √(ε + max s 0)` turns a
  squared distance into a distance. Every point of `y` has a nearest point of `x` (`nearestX`: the infimum of the
  squared distances over `j`) and every point of `x` a nearest point of `y` (`nearestY`: the infimum over `i`).
  The loss of a batch is the mean over the points of `x` of the distance to their nearest point of `y`, plus the mean
  over the points of `y` of the distance to their nearest point of `x` (`meanPair`).

  The distance is taken AFTER the infimum here. Taking it before gives the same number, because `dist` is monotone
  (`dist_mono`, `dist_inf`): a monotone map of a linear order carries the least of finitely many values to the least
  of their images.
-/
import Idealize.ShloMosaic.PureOps.Ideal
import Idealize.ShloMosaic.PureOps.Ideal.Laws
import Idealize.ShloMosaic.Lib.ValueIdx
import proofs.«117512_j83442624626996_2_alg».proof.Proof.LibMinFold

noncomputable section

namespace Chamfer

open Idealize.ShloMosaic Idealize.ShloMosaic.ValueIdx

/-- A batch of eight clouds of 4096 points with three coordinates each. -/
abbrev Cloud : Type := (⟨3, ![8, 4096, 3]⟩ : Shape).Idx → EReal

/-- One number per batch and point. -/
abbrev PerPoint : Type := (⟨2, ![8, 4096]⟩ : Shape).Idx → EReal

/-- The squared distance between point `i` of `y` and point `j` of `x` in batch `b`. -/
def sqd (x y : Cloud) (b : Fin 8) (i j : Fin 4096) : EReal :=
  (y (ix3 b i 0) - x (ix3 b j 0)) * (y (ix3 b i 0) - x (ix3 b j 0))
    + (y (ix3 b i 1) - x (ix3 b j 1)) * (y (ix3 b i 1) - x (ix3 b j 1))
    + (y (ix3 b i 2) - x (ix3 b j 2)) * (y (ix3 b i 2) - x (ix3 b j 2))

/-- The shift `ε` under the root: the binary32 number nearest to one millionth. -/
abbrev eps : EReal := Ideal.ofBits .f32 0x358637BD#32

/-- From a squared distance to a distance: clamp at zero, shift by `ε`, take the root. -/
def dist (s : EReal) : EReal := Ideal.sqrt (eps + max s (Ideal.ofBits .f32 0x00000000#32))

/-- The squared distance from point `i` of `y` to its nearest point of `x`. -/
def nearestX (x y : Cloud) (b : Fin 8) (i : Fin 4096) : EReal := Finset.univ.inf fun j : Fin 4096 => sqd x y b i j

/-- The squared distance from point `j` of `x` to its nearest point of `y`. -/
def nearestY (x y : Cloud) (b : Fin 8) (j : Fin 4096) : EReal := Finset.univ.inf fun i : Fin 4096 => sqd x y b i j

/-- Per point of `y`, the distance to its nearest point of `x`. -/
def minsX (x y : Cloud) : PerPoint := fun p => dist (nearestX x y (p 0) (p 1))

/-- Per point of `x`, the distance to its nearest point of `y`. -/
def minsY (x y : Cloud) : PerPoint := fun p => dist (nearestY x y (p 0) (p 1))

/-- The loss of each batch from two per-point tables: the mean of the first plus the mean of the second, each mean the
    sum from zero divided by 4096. The three arguments in front are the shape facts the summation and the constant's
    spreading over the eight batches ask for. -/
def meanPair (hr : (⟨2, ![8, 4096]⟩ : Shape).ReducesTo [1] ⟨1, ![8]⟩) (h0 : 0 < (⟨0, ![]⟩ : Shape).numel)
    (hb : (⟨0, ![]⟩ : Shape).BroadcastsInDim ⟨1, ![8]⟩ (![] : Fin 0 → Fin (⟨1, ![8]⟩ : Shape).rank))
    (a b : PerPoint) : (⟨1, ![8]⟩ : Shape).Idx → EReal :=
  addf (F := Ideal) (φ := .f32)
    (Host.divf (F := Ideal) (φ := .f32) (Host.reduceAdd (F := Ideal) (φ := .f32) a (constant (F := Ideal) ⟨0, ![]⟩ .f32 0x00000000#32) hr h0)
      (broadcastInDim ⟨1, ![8]⟩ ![] hb (constant (F := Ideal) ⟨0, ![]⟩ .f32 0x45800000#32)))
    (Host.divf (F := Ideal) (φ := .f32) (Host.reduceAdd (F := Ideal) (φ := .f32) b (constant (F := Ideal) ⟨0, ![]⟩ .f32 0x00000000#32) hr h0)
      (broadcastInDim ⟨1, ![8]⟩ ![] hb (constant (F := Ideal) ⟨0, ![]⟩ .f32 0x45800000#32)))

/-- The root is monotone on every extended real: below zero it is the least element, and on `[0, ∞]` it is the real
    root with `√∞ = ∞`. -/
theorem sqrt_mono : Monotone Ideal.sqrt := Idealize.ShloMosaic.MinFold.sqrt_mono

/-- So `dist` is monotone: clamping, shifting and the root all are. -/
theorem dist_mono : Monotone dist := fun a b hab =>
  sqrt_mono (add_le_add le_rfl (max_le_max hab le_rfl))

/-- A monotone map carries the least of two values to the least of their images. -/
theorem dist_min (a b : EReal) : dist (min a b) = min (dist a) (dist b) := dist_mono.map_min

end Chamfer

end
-- ==== Proof.RefDistance.lean ====
/-
  One entry of the reference's table of distances.

  For a batch `b`, a point `i` of `y` and a point `j` of `x`, the reference does not subtract coordinates. It adds
  the squared length of `y i` (the three squares summed from zero) to the squared length of `x j` and takes away
  twice the inner product of the two points (`expanded`), then clamps at zero, shifts by `ε` and takes the root.
  Over the real numbers

      Σ_c (y_c - x_c)²  =  Σ_c y_c² + Σ_c x_c² - 2 Σ_c y_c x_c ,

  so for clouds whose coordinates are all real numbers the expanded form is the squared distance `sqd`, and the
  entry is `dist (sqd x y b i j)`. The identity needs real coordinates: with an infinite coordinate the left side
  may be `∞ - ∞` in one arrangement and not in the other.
-/
import proofs.«117512_j83442624626996_2_alg».proof.Proof.Gen.ReferenceIdeal.Read
import proofs.«117512_j83442624626996_2_alg».proof.Proof.Spec

noncomputable section

namespace Chamfer.Ref

open Cert.ReferenceIdeal Cert.ReferenceIdeal.Gen Cert.ReferenceIdeal.Read Idealize.ShloMosaic Idealize.ShloMosaic.ValueIdx

/-! ## Which coordinates an entry reads -/

/-- The squared length of `y i` is broadcast along `j`: at entry `(b, i, j)` its `k`-th summand reads `y (b, i, k)`. -/
theorem idx_ySquares (b : Fin 8) (i j : Fin 4096) (k : Fin 3) :
    idx_main_v3 (idx_main_v5 (idx_main_v7 (ix3 b i j))) k = ix3 b i k :=
  funext fun a => Fin.ext (by match a with | ⟨0, _⟩ => rfl | ⟨1, _⟩ => rfl | ⟨2, _⟩ => rfl)

/-- The squared length of `x j` is broadcast along `i`: at entry `(b, i, j)` its `k`-th summand reads `x (b, j, k)`. -/
theorem idx_xSquares (b : Fin 8) (i j : Fin 4096) (k : Fin 3) :
    idx_main_v1 (idx_main_v6 (idx_main_v8 (ix3 b i j))) k = ix3 b j k :=
  funext fun a => Fin.ext (by match a with | ⟨0, _⟩ => rfl | ⟨1, _⟩ => rfl | ⟨2, _⟩ => rfl)

/-- The inner product's left factor at entry `(b, i, j)` is `y (b, i, k)`. -/
theorem idx_innerLeft (b : Fin 8) (i j : Fin 4096) (k : Fin 3) : lidx_main_v4 (ix3 b i j) k = ix3 b i k :=
  funext fun a => Fin.ext (by match a with | ⟨0, _⟩ => rfl | ⟨1, _⟩ => rfl | ⟨2, _⟩ => rfl)

/-- The inner product's right factor at entry `(b, i, j)` is `x (b, j, k)`. -/
theorem idx_innerRight (b : Fin 8) (i j : Fin 4096) (k : Fin 3) : ridx_main_v4 (ix3 b i j) k = ix3 b j k :=
  funext fun a => Fin.ext (by match a with | ⟨0, _⟩ => rfl | ⟨1, _⟩ => rfl | ⟨2, _⟩ => rfl)

/-! ## The entry, as the reference arranges it -/

/-- `|y i|² + |x j|² - 2 ⟨y i, x j⟩`, each sum of three taken from zero, the factor two as its binary32 word. -/
def expanded (x y : Cloud) (b : Fin 8) (i j : Fin 4096) : EReal :=
  (Ideal.ofBits .f32 0x00000000#32 + ∑ k : Fin 3, y (ix3 b i k) * y (ix3 b i k))
      + (Ideal.ofBits .f32 0x00000000#32 + ∑ k : Fin 3, x (ix3 b j k) * x (ix3 b j k))
    - Ideal.ofBits .f32 0x40000000#32 * ∑ k : Fin 3, y (ix3 b i k) * x (ix3 b j k)

/-- Entry `(b, i, j)` of the reference's table of distances is `dist` of the expanded form. -/
theorem distance_entry (x y : Cloud) (b : Fin 8) (i j : Fin 4096) :
    val_main_v17 (F := Ideal) x y (ix3 b i j) = dist (expanded x y b i j) := by
  rw [val_main_v17_apply, val_main_v16_apply, val_main_v15_apply, val_main_cst_3_apply, val_main_v14_apply,
    val_main_v13_apply, val_main_cst_2_apply, val_main_v12_apply, val_main_v9_apply, val_main_v7_apply,
    val_main_v5_apply, val_main_v3_apply, val_main_cst_0_apply, val_main_v8_apply, val_main_v6_apply,
    val_main_v1_apply, val_main_cst_apply, val_main_v11_apply, val_main_v10_apply, val_main_cst_1_apply,
    val_main_v4_apply]
  simp only [val_main_v2_apply, val_main_v0_apply, idx_ySquares, idx_xSquares, idx_innerLeft, idx_innerRight,
    Ideal.hostUnary_sqrt_def, Ideal.addf_def, Ideal.subf_def, Ideal.mulf_def, Ideal.maximumf_def, Ideal.ofBits_def]
  rfl

/-! ## Over the reals the expanded form is the squared distance -/

/-- The binary32 word `0x40000000` is the number two. -/
theorem ofBits_two : Ideal.ofBits .f32 0x40000000#32 = ((2 : ℝ) : EReal) := by
  simp [Ideal.ofBits, Ideal.ieee, -EReal.coe_mul]; norm_num

/-- For clouds of real coordinates, `|y i|² + |x j|² - 2 ⟨y i, x j⟩ = |y i - x j|²`. -/
theorem expanded_eq_sqd (x y : Cloud) (hx : ∀ p, ∃ r : ℝ, x p = (r : EReal)) (hy : ∀ p, ∃ r : ℝ, y p = (r : EReal))
    (b : Fin 8) (i j : Fin 4096) : expanded x y b i j = sqd x y b i j := by
  choose rx hrx using hx
  choose ry hry using hy
  unfold expanded sqd
  rw [Fin.sum_univ_three, Fin.sum_univ_three, Fin.sum_univ_three, Ideal.ofBits_zero_f32, ofBits_two, zero_add, zero_add]
  simp only [hrx, hry, ← EReal.coe_mul, ← EReal.coe_add, ← EReal.coe_sub]
  exact congrArg _ (by ring)

/-- Entry `(b, i, j)` of the reference's table of distances, for clouds of real coordinates: the distance between
    point `i` of `y` and point `j` of `x`. -/
theorem distance_entry_real (x y : Cloud) (hx : ∀ p, ∃ r : ℝ, x p = (r : EReal)) (hy : ∀ p, ∃ r : ℝ, y p = (r : EReal))
    (b : Fin 8) (i j : Fin 4096) : val_main_v17 (F := Ideal) x y (ix3 b i j) = dist (sqd x y b i j) := by
  rw [distance_entry, expanded_eq_sqd x y hx hy]

end Chamfer.Ref

end
-- ==== Proof.RefMins.lean ====
/-
  The two tables of nearest distances, as the reference computes them.

  From its table of distances the reference takes, for every point of `x`, the least distance to a point of `y` (a
  minimum over the table's middle axis) and, for every point of `y`, the least distance to a point of `x` (a minimum
  over the last axis). Each is a fold of `min` from `+∞` over the 4096 entries of one axis, that is, an infimum of
  finitely many values.

  The table's entries are `dist` of squared distances, and `dist` is monotone. A monotone map of a linear order
  carries the least of finitely many values, when there is at least one, to the least of their images; so the least
  distance is `dist` of the least squared distance, which is how the specification states it.
-/
import proofs.«117512_j83442624626996_2_alg».proof.Proof.RefDistance

noncomputable section

namespace Chamfer.Ref

open Cert.ReferenceIdeal Cert.ReferenceIdeal.Gen Cert.ReferenceIdeal.Read Idealize.ShloMosaic Idealize.ShloMosaic.ValueIdx

/-! ## A fold of `min` from `+∞` is an infimum -/

/-- The infimum of finitely many extended reals is the fold of `min` from the greatest element. -/
theorem fold_min_top {ι : Type} (s : Finset ι) (f : ι → EReal) : s.fold min ⊤ f = s.inf f := rfl

/-- The binary32 word `0x7F800000` is `+∞`, the greatest extended real. -/
theorem ofBits_posInf : Ideal.ofBits .f32 0x7F800000#32 = ⊤ := by simp [Ideal.ofBits, Ideal.ieee]

/-! ## The entries one minimum ranges over -/

/-- Putting coordinate `k` back on the middle axis of `(b, j)` gives `(b, k, j)`. -/
theorem lift_middle (h : S8x4096x4096.Reduces [1] S8x4096) (b : Fin 8) (j : Fin 4096) (k : Fin (S8x4096x4096.size 1)) :
    h.lift (ix2 b j) k = ix3 b (⟨k.val, k.isLt⟩ : Fin 4096) j := by
  funext c; apply Fin.ext
  fin_cases c <;> rfl

/-- Putting coordinate `k` back on the last axis of `(b, i)` gives `(b, i, k)`. -/
theorem lift_last (h : S8x4096x4096.Reduces [2] S8x4096) (b : Fin 8) (i : Fin 4096) (k : Fin (S8x4096x4096.size 2)) :
    h.lift (ix2 b i) k = ix3 b i (⟨k.val, k.isLt⟩ : Fin 4096) := by
  funext c; apply Fin.ext
  fin_cases c <;> rfl

/-- The minimum over the middle axis, from `+∞`, at `(b, j)`: the infimum over `i` of the entries `(b, i, j)`. -/
theorem reduce_min_middle (d : FVec Ideal S8x4096x4096 .f32) (b : Fin 8) (j : Fin 4096) :
    Host.reduce (FloatOps.minimumf (F := Ideal) (φ := .f32)) d (constant (F := Ideal) S_ .f32 0x7F800000#32)
        reducesTo_S8x4096x4096_S8x4096_d1 h_S_ (ix2 b j)
      = Finset.univ.inf fun i : Fin 4096 => d (ix3 b i j) := by
  have h : S8x4096x4096.Reduces [1] S8x4096 := by decide
  refine (Host.reduce_eq_fold_single (FloatOps.minimumf (F := Ideal) (φ := .f32)) d _
    reducesTo_S8x4096x4096_S8x4096_d1 h h_S_ (ix2 b j)).trans ?_
  have hf : (d ∘ h.lift (ix2 b j)) = fun k : Fin 4096 => d (ix3 b k j) :=
    funext fun k => congrArg d (lift_middle h b j k)
  rw [hf]
  have htop : (constant (F := Ideal) S_ .f32 0x7F800000#32) (Shape.Idx.first h_S_) = (⊤ : EReal) := ofBits_posInf
  rw [htop]
  exact fold_min_top _ _

/-- The minimum over the last axis, from `+∞`, at `(b, i)`: the infimum over `j` of the entries `(b, i, j)`. -/
theorem reduce_min_last (d : FVec Ideal S8x4096x4096 .f32) (b : Fin 8) (i : Fin 4096) :
    Host.reduce (FloatOps.minimumf (F := Ideal) (φ := .f32)) d (constant (F := Ideal) S_ .f32 0x7F800000#32)
        reducesTo_S8x4096x4096_S8x4096_d2 h_S_ (ix2 b i)
      = Finset.univ.inf fun j : Fin 4096 => d (ix3 b i j) := by
  have h : S8x4096x4096.Reduces [2] S8x4096 := by decide
  refine (Host.reduce_eq_fold_single (FloatOps.minimumf (F := Ideal) (φ := .f32)) d _
    reducesTo_S8x4096x4096_S8x4096_d2 h h_S_ (ix2 b i)).trans ?_
  have hf : (d ∘ h.lift (ix2 b i)) = fun k : Fin 4096 => d (ix3 b i k) :=
    funext fun k => congrArg d (lift_last h b i k)
  rw [hf]
  have htop : (constant (F := Ideal) S_ .f32 0x7F800000#32) (Shape.Idx.first h_S_) = (⊤ : EReal) := ofBits_posInf
  rw [htop]
  exact fold_min_top _ _

/-! ## The least distance is the distance of the least squared distance -/

/-- Per point of `x`, the reference's least distance to a point of `y` is the specification's `minsY`. -/
theorem minsY_eq (x y : Cloud) (hx : ∀ p, ∃ r : ℝ, x p = (r : EReal)) (hy : ∀ p, ∃ r : ℝ, y p = (r : EReal)) :
    val_main_v18 (F := Ideal) x y = minsY x y := by
  funext p
  obtain ⟨b, j, rfl⟩ : ∃ (b : Fin 8) (j : Fin 4096), p = ix2 b j := ⟨p 0, p 1, eq_ix2 p⟩
  unfold val_main_v18 val_main_cst_4
  rw [reduce_min_middle]
  simp only [distance_entry_real x y hx hy]
  show _ = dist (nearestY x y b j)
  unfold nearestY
  exact (Finset.apply_inf_eq_inf_comp_of_nonempty dist_mono Finset.univ_nonempty).symm

/-- Per point of `y`, the reference's least distance to a point of `x` is the specification's `minsX`. -/
theorem minsX_eq (x y : Cloud) (hx : ∀ p, ∃ r : ℝ, x p = (r : EReal)) (hy : ∀ p, ∃ r : ℝ, y p = (r : EReal)) :
    val_main_v19 (F := Ideal) x y = minsX x y := by
  funext p
  obtain ⟨b, i, rfl⟩ : ∃ (b : Fin 8) (i : Fin 4096), p = ix2 b i := ⟨p 0, p 1, eq_ix2 p⟩
  unfold val_main_v19 val_main_cst_5
  rw [reduce_min_last]
  simp only [distance_entry_real x y hx hy]
  show _ = dist (nearestX x y b i)
  unfold nearestX
  exact (Finset.apply_inf_eq_inf_comp_of_nonempty dist_mono Finset.univ_nonempty).symm

end Chamfer.Ref

end
-- ==== Proof.RefValue.lean ====
/-
  The reference's result is the specification, for clouds of real coordinates.

  After its two tables of nearest distances the reference sums each over the 4096 points from zero, divides by 4096
  and adds the two means: the same tail the specification's `meanPair` applies. The tables themselves are the
  specification's `minsY` (per point of `x`, the distance to the nearest point of `y`) and `minsX` (per point of
  `y`, the distance to the nearest point of `x`), so the two results are the same function of `x` and `y`.
-/
import proofs.«117512_j83442624626996_2_alg».proof.Proof.RefMins

noncomputable section

namespace Chamfer.Ref

open Cert.ReferenceIdeal Cert.ReferenceIdeal.Gen Cert.ReferenceIdeal.Read Idealize.ShloMosaic Idealize.ShloMosaic.ValueIdx

/-- The reference's last nine operations are `meanPair` of its two tables of nearest distances, whichever proofs of
    the three shape facts `meanPair` is given. -/
theorem result_eq_meanPair (x y : Cloud) (hr : (⟨2, ![8, 4096]⟩ : Shape).ReducesTo [1] ⟨1, ![8]⟩)
    (h0 : 0 < (⟨0, ![]⟩ : Shape).numel)
    (hb : (⟨0, ![]⟩ : Shape).BroadcastsInDim ⟨1, ![8]⟩ (![] : Fin 0 → Fin (⟨1, ![8]⟩ : Shape).rank)) :
    val_main_v26 (F := Ideal) x y
      = meanPair hr h0 hb (val_main_v18 (F := Ideal) x y) (val_main_v19 (F := Ideal) x y) := by
  unfold val_main_v26 val_main_v22 val_main_v25 val_main_v20 val_main_v23 val_main_v21 val_main_v24
    val_main_cst_6 val_main_cst_7 val_main_cst_8 val_main_cst_9 meanPair
  rfl

/-- For clouds of real coordinates the reference's result is the specification's, whichever proofs of the three shape
    facts the specification is given. -/
theorem ref_is_spec_of (x y : Cloud) (hx : ∀ i, ∃ r : ℝ, x i = (r : EReal)) (hy : ∀ i, ∃ r : ℝ, y i = (r : EReal))
    (hr : (⟨2, ![8, 4096]⟩ : Shape).ReducesTo [1] ⟨1, ![8]⟩) (h0 : 0 < (⟨0, ![]⟩ : Shape).numel)
    (hb : (⟨0, ![]⟩ : Shape).BroadcastsInDim ⟨1, ![8]⟩ (![] : Fin 0 → Fin (⟨1, ![8]⟩ : Shape).rank)) :
    val_main_v26 (F := Ideal) x y = meanPair hr h0 hb (minsY x y) (minsX x y) := by
  rw [result_eq_meanPair x y hr h0 hb, minsY_eq x y hx hy, minsX_eq x y hx hy]

/-- For clouds of real coordinates the reference's result is the specification's, at the program's own shape facts. -/
theorem ref_is_spec (x y : Cloud) (hx : ∀ i, ∃ r : ℝ, x i = (r : EReal)) (hy : ∀ i, ∃ r : ℝ, y i = (r : EReal)) :
    Cert.ReferenceIdeal.Read.val_main_v26 (F := Ideal) x y
      = Chamfer.meanPair Cert.ReferenceIdeal.Facts₀.reducesTo_S8x4096_S8_d1 Cert.ReferenceIdeal.Facts₀.h_S_
          Cert.ReferenceIdeal.Facts₀.bcast_S_S8 (Chamfer.minsY x y) (Chamfer.minsX x y) :=
  ref_is_spec_of x y hx hy _ _ _

end Chamfer.Ref

end
-- ==== Proof.TileMath.lean ====
/-
  One tile of squared distances, entry by entry, and what the body makes of it.

  A block of `y` (four batches, 512 points) against a block of `x` (four batches, 512 points) gives a tile of
  4 × 512 × 512 squared distances: entry `(b, r, s)` is the squared distance between point `r` of the `y` block and point
  `s` of the `x` block in batch `b`, the three squared coordinate differences added first to last. The tile's row part
  is, per `(b, r)`, the least entry over `s`; its column part, per `(b, s)`, the least entry over `r`. Both are stated by
  their universal property: a number is below the part exactly when it is below every entry it is taken over.
-/
import proofs.«117512_j83442624626996_2_alg».proof.Proof.Gen.KernelIdeal.Skeleton
import proofs.«117512_j83442624626996_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Chamfer.Tile

open Cert.KernelIdeal Cert.KernelIdeal.Gen

/-- The word of +∞ is the greatest extended real. -/
theorem inf_word : Ideal.ofBits .f32 0x7F800000#32 = (⊤ : EReal) := Idealize.ShloMosaic.MinFold.inf_word

/-- Coordinate `k` of the `y` block, taken as a column and spread along the tile's columns: entry `(b, r, s)` is
    coordinate `k` of point `r`, whatever `s`. -/
theorem rowSide (v : S4x512x3.Idx → EReal) (k : Fin 3) (off : Fin 3 → ℕ) (hoff : off = ![0, 0, k.val])
    (hs : S4x512x3.Slices off S4x512x1) (h1 : S4x512x1.ShapeCasts S4x512) (h2 : S4x512.ShapeCasts S4x512x1)
    (hb : S4x512x1.Broadcasts S4x512x512) (b : Fin 4) (r s : Fin 512) :
    broadcastTo S4x512x512 (shapeCast S4x512x1 (shapeCast S4x512 (extractStridedSlice S4x512x1 off v hs) h1) h2) hb (ix3 b r s)
      = v (ix3 b r k) := by
  rw [shapeCast_shapeCast]
  refine (broadcastTo_apply _ hb (ix3 b r s) (ix3 b r 0) (fun a => ?_)).trans ?_
  · match a with
    | ⟨0, _⟩ => rfl
    | ⟨1, _⟩ => rfl
    | ⟨2, _⟩ => rfl
  · refine extractStridedSlice_apply off v hs _ (ix3 b r k) (fun a => ?_)
    subst hoff
    match a with
    | ⟨0, _⟩ => show b.val = 0 + b.val; omega
    | ⟨1, _⟩ => show r.val = 0 + r.val; omega
    | ⟨2, _⟩ => show k.val = k.val + 0; omega

/-- Coordinate `k` of the `x` block, taken as a row and spread along the tile's rows: entry `(b, r, s)` is coordinate
    `k` of point `s`, whatever `r`. -/
theorem colSide (v : S4x512x3.Idx → EReal) (k : Fin 3) (off : Fin 3 → ℕ) (hoff : off = ![0, 0, k.val])
    (hs : S4x512x3.Slices off S4x512x1) (h1 : S4x512x1.ShapeCasts S4x512) (h3 : S4x512.ShapeCasts S4x1x512)
    (hb : S4x1x512.Broadcasts S4x512x512) (b : Fin 4) (r s : Fin 512) :
    broadcastTo S4x512x512 (shapeCast S4x1x512 (shapeCast S4x512 (extractStridedSlice S4x512x1 off v hs) h1) h3) hb (ix3 b r s)
      = v (ix3 b s k) := by
  refine (broadcastTo_apply _ hb (ix3 b r s) (ix3 b 0 s) (fun a => ?_)).trans ?_
  · match a with
    | ⟨0, _⟩ => rfl
    | ⟨1, _⟩ => rfl
    | ⟨2, _⟩ => rfl
  refine (shapeCast_apply _ h3 (ix3 b 0 s) (ix2 b s) ?_).trans ?_
  · rw [Shape.rowMajor_val_two, Shape.rowMajor_val_three]
    show b.val * 512 + s.val = (b.val * 1 + 0) * 512 + s.val
    omega
  refine (shapeCast_apply _ h1 (ix2 b s) (ix3 b s 0) ?_).trans ?_
  · rw [Shape.rowMajor_val_two, Shape.rowMajor_val_three]
    show (b.val * 512 + s.val) * 1 + 0 = b.val * 512 + s.val
    omega
  refine extractStridedSlice_apply off v hs _ (ix3 b s k) (fun a => ?_)
  subst hoff
  match a with
  | ⟨0, _⟩ => show b.val = 0 + b.val; omega
  | ⟨1, _⟩ => show s.val = 0 + s.val; omega
  | ⟨2, _⟩ => show k.val = k.val + 0; omega

/-- The tile's entry `(b, r, s)`: the squared distance between point `r` of the `y` block and point `s` of the `x` block. -/
theorem tile_apply (v8 v9 : S4x512x3.Idx → EReal) (b : Fin 4) (r s : Fin 512) :
    k0_pay7 (F := Ideal) v8 v9 (ix3 b r s)
      = (v8 (ix3 b r 0) - v9 (ix3 b s 0)) * (v8 (ix3 b r 0) - v9 (ix3 b s 0))
        + (v8 (ix3 b r 1) - v9 (ix3 b s 1)) * (v8 (ix3 b r 1) - v9 (ix3 b s 1))
        + (v8 (ix3 b r 2) - v9 (ix3 b s 2)) * (v8 (ix3 b r 2) - v9 (ix3 b s 2)) := by
  unfold k0_pay7
  simp only [addf_apply, mulf_apply, subf_apply]
  rw [rowSide v8 0 ![0, 0, 0] rfl, rowSide v8 1 ![0, 0, 1] rfl, rowSide v8 2 ![0, 0, 2] rfl,
    colSide v9 0 ![0, 0, 0] rfl, colSide v9 1 ![0, 0, 1] rfl, colSide v9 2 ![0, 0, 2] rfl]

/-- Putting column `s` back into `(b, r)` gives `(b, r, s)`. -/
theorem lift_last (h : S4x512x512.Reduces [2] S4x512) (b : Fin 4) (r : Fin 512) (s : Fin (S4x512x512.size 2)) :
    h.lift (ix2 b r) s = ix3 b r s := by
  funext c
  apply Fin.ext
  show h.liftVal (ix2 b r) s.val c = _
  unfold Shape.Reduces.liftVal
  match c with
  | ⟨0, _⟩ => rfl
  | ⟨1, _⟩ => rfl
  | ⟨2, _⟩ => rfl

/-- Putting row `r` back into `(b, s)` gives `(b, r, s)`. -/
theorem lift_mid (h : S4x512x512.Reduces [1] S4x512) (b : Fin 4) (s : Fin 512) (r : Fin (S4x512x512.size 1)) :
    h.lift (ix2 b s) r = ix3 b r s := by
  funext c
  apply Fin.ext
  show h.liftVal (ix2 b s) r.val c = _
  unfold Shape.Reduces.liftVal
  match c with
  | ⟨0, _⟩ => rfl
  | ⟨1, _⟩ => rfl
  | ⟨2, _⟩ => rfl

/-- Below the tile's row part at `(b, r)` is below every entry of row `(b, r)`. -/
theorem rowPart_le (v8 v9 : S4x512x3.Idx → EReal) (b : Fin 4) (r : Fin 512) (z : EReal) :
    z ≤ k0_pay8 (F := Ideal) v8 v9 (ix2 b r) ↔ ∀ s : Fin 512, z ≤ k0_pay7 (F := Ideal) v8 v9 (ix3 b r s) := by
  unfold k0_pay8
  refine (Idealize.ShloMosaic.MinFold.le_minReduce _ _ _ _ (ix2 b r) z).trans ?_
  constructor
  · intro h s; exact (congrArg (fun i => z ≤ k0_pay7 (F := Ideal) v8 v9 i) (lift_last _ b r s)).mp (h s)
  · intro h s; exact (congrArg (fun i => z ≤ k0_pay7 (F := Ideal) v8 v9 i) (lift_last _ b r s)).mpr (h s)

/-- The row minima updated: entry by entry the minimum of the old value and the tile's row part. -/
theorem rowUpd_apply (v42 v43 : S4x512.Idx → EReal) (p : S4x512.Idx) :
    k0_pay1 (F := Ideal) v42 v43 p = min (v43 p) (v42 p) := by
  unfold k0_pay1
  rw [shapeCast_self]
  rfl

/-- Below the column minima updated at `(b, s)` is below the old value there and below every entry of column `(b, s)` of the tile. -/
theorem colUpd_le (v41 : S4x512x512.Idx → EReal) (v52 : S4x512.Idx → EReal) (b : Fin 4) (s : Fin 512) (z : EReal) :
    z ≤ k0_pay2 (F := Ideal) v41 v52 (ix2 b s) ↔ z ≤ v52 (ix2 b s) ∧ ∀ r : Fin 512, z ≤ v41 (ix3 b r s) := by
  unfold k0_pay2
  rw [shapeCast_self]
  show z ≤ min (v52 (ix2 b s)) _ ↔ _
  rw [le_min_iff]
  refine and_congr Iff.rfl ((Idealize.ShloMosaic.MinFold.le_minReduce _ _ _ _ (ix2 b s) z).trans ?_)
  constructor
  · intro h r; exact (congrArg (fun i => z ≤ v41 i) (lift_mid _ b s r)).mp (h r)
  · intro h r; exact (congrArg (fun i => z ≤ v41 i) (lift_mid _ b s r)).mpr (h r)

/-- The distances of the row minima, as a [4, 1, 512] block: entry `(b, 0, r)` is the distance of the minimum at `(b, r)`. -/
theorem rowDist_apply (v66 : S4x512.Idx → EReal) (b : Fin 4) (r : Fin 512) :
    k0_pay3 (F := Ideal) v66 (ix3 b 0 r) = Chamfer.dist (v66 (ix2 b r)) := by
  unfold k0_pay3
  refine (shapeCast_apply _ _ (ix3 b 0 r) (ix2 b r) ?_).trans ?_
  · rw [Shape.rowMajor_val_two, Shape.rowMajor_val_three]
    show b.val * 512 + r.val = (b.val * 1 + 0) * 512 + r.val
    omega
  · rfl

/-- The distances of the column minima, as a [4, 1, 4096] block: entry `(b, 0, q)` is the distance of the minimum at `(b, q)`. -/
theorem colDist_apply (v66 : S4x4096.Idx → EReal) (b : Fin 4) (q : Fin 4096) :
    k0_pay4 (F := Ideal) v66 (ix3 b 0 q) = Chamfer.dist (v66 (ix2 b q)) := by
  unfold k0_pay4
  refine (shapeCast_apply _ _ (ix3 b 0 q) (ix2 b q) ?_).trans ?_
  · rw [Shape.rowMajor_val_two, Shape.rowMajor_val_three]
    show b.val * 4096 + q.val = (b.val * 1 + 0) * 4096 + q.val
    omega
  · rfl

/-- The fill of the row minima is +∞ everywhere, -/
theorem fillRow_apply (p : S4x512.Idx) : k0_pay6 (F := Ideal) p = (⊤ : EReal) := by
  unfold k0_pay6
  rw [shapeCast_self]
  exact inf_word

/-- and so is the fill of the column minima. -/
theorem fillCol_apply (p : S4x4096.Idx) : k0_pay5 (F := Ideal) p = (⊤ : EReal) := by
  unfold k0_pay5
  rw [shapeCast_self]
  exact inf_word

end Chamfer.Tile
end
-- ==== Proof.CaseValues.lean ====
/-
  What one run of the body leaves behind, case by case, as values.

  The body keeps two running minima between grid points: per row of the current block of `y`, the least squared
  distance to the points of `x` seen so far (four batches by 512 rows), and per point of `x`, the least squared
  distance to the points of `y` seen so far (four batches by all 4096 columns). A run replaces the first by its
  minimum with the tile's row minima — starting again from +∞ at the first tile of a row of tiles — and replaces, in
  the second, the 512 columns of the current tile by their minimum with the tile's column minima, leaving the other
  columns as they were — starting again from +∞ at the first tile of a batch group. At the last tile of a row of tiles
  it writes the distances of the first out, and at the last tile of a batch group those of the second.
-/
import proofs.«117512_j83442624626996_2_alg».proof.Proof.Gen.KernelIdeal.Frame
import Idealize.ShloMosaic.Lib.Pipeline.Value
import Idealize.ShloMosaic.Lib.WritesUnit
import Idealize.ShloMosaic.Lib.Tactic

set_option maxRecDepth 16384

noncomputable section

open Idealize.ShloMosaic Idealize.ShloMosaic.TcCoe Idealize.SL.Sem

namespace Cert.KernelIdeal.CaseValues

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Case A: the row minima after the run are the minimum of +∞, just stored, with the tile's row minima. -/
theorem rowA (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : cond0_0 i) (hc1 : cond0_1 i) (hc2 : ¬cond0_2 i) (hc3 : ¬cond0_3 i) (x0 : Vec F S4x512x3 .f32) (x1 : Vec F S4x512x3 .f32) : sout0_A_0 c i arg3 harg3 arg4 harg4 arg5 harg5 arg6 harg6 arg7 harg7 arg8 harg8 hc0 hc1 hc2 hc3 x0 x1 = k0_pay1 (k0_pay8 x0 x1) (k0_pay6 (F := F)) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S4x512) zeros2, View.readCov_unit_zero (S := S4x512) _ zeros2]
  simp only [View.readAt_eq_ld, harg3.read_unread, harg4.read_unread, View.ld_unit_zero (S := S4x512x3) zeros3]

/-- Case B: the row minima after the run are the minimum of what the point before left with the tile's row minima. -/
theorem rowB (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : ¬cond0_2 i) (hc3 : ¬cond0_3 i) (x0 : Vec F S4x512x3 .f32) (x1 : Vec F S4x512x3 .f32) (xs0 : Vec F S4x512 .f32) (xs1 : Vec F S4x4096 .f32) : sout0_B_0 c i arg3 harg3 arg4 harg4 arg5 harg5 arg6 harg6 arg7 harg7 arg8 harg8 hc0 hc1 hc2 hc3 x0 x1 xs0 xs1 = k0_pay1 (k0_pay8 x0 x1) xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero (S := S4x512) zeros2]
  simp only [View.readAt_eq_ld, harg3.read_unread, harg4.read_unread, harg7.read_unread, View.ld_unit_zero (S := S4x512x3) zeros3, View.ld_unit_zero (S := S4x512) zeros2]

/-- Case C: the row minima after the run are the minimum of what the point before left with the tile's row minima. -/
theorem rowC (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : ¬cond0_3 i) (x0 : Vec F S4x512x3 .f32) (x1 : Vec F S4x512x3 .f32) (xs0 : Vec F S4x512 .f32) (xs1 : Vec F S4x4096 .f32) : sout0_C_0 c i arg3 harg3 arg4 harg4 arg5 harg5 arg6 harg6 arg7 harg7 arg8 harg8 hc0 hc1 hc2 hc3 x0 x1 xs0 xs1 = k0_pay1 (k0_pay8 x0 x1) xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero (S := S4x512) zeros2]
  simp only [View.readAt_eq_ld, harg3.read_unread, harg4.read_unread, harg7.read_unread, View.ld_unit_zero (S := S4x512x3) zeros3, View.ld_unit_zero (S := S4x512) zeros2]

/-- Case D: the row minima after the run are the minimum of +∞, just stored, with the tile's row minima. -/
theorem rowD (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : cond0_1 i) (hc2 : ¬cond0_2 i) (hc3 : ¬cond0_3 i) (x0 : Vec F S4x512x3 .f32) (x1 : Vec F S4x512x3 .f32) (xs1 : Vec F S4x4096 .f32) : sout0_D_0 c i arg3 harg3 arg4 harg4 arg5 harg5 arg6 harg6 arg7 harg7 arg8 harg8 hc0 hc1 hc2 hc3 x0 x1 xs1 = k0_pay1 (k0_pay8 x0 x1) (k0_pay6 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S4x512) zeros2, View.readCov_unit_zero (S := S4x512) _ zeros2]
  simp only [View.readAt_eq_ld, harg3.read_unread, harg4.read_unread, View.ld_unit_zero (S := S4x512x3) zeros3]

/-- Case E: the row minima after the run are the minimum of what the point before left with the tile's row minima. -/
theorem rowE (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : cond0_3 i) (x0 : Vec F S4x512x3 .f32) (x1 : Vec F S4x512x3 .f32) (xs0 : Vec F S4x512 .f32) (xs1 : Vec F S4x4096 .f32) : sout0_E_0 c i arg3 harg3 arg4 harg4 arg5 harg5 arg6 harg6 arg7 harg7 arg8 harg8 hc0 hc1 hc2 hc3 x0 x1 xs0 xs1 = k0_pay1 (k0_pay8 x0 x1) xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero (S := S4x512) zeros2]
  simp only [View.readAt_eq_ld, harg3.read_unread, harg4.read_unread, harg7.read_unread, View.ld_unit_zero (S := S4x512x3) zeros3, View.ld_unit_zero (S := S4x512) zeros2]

/-- Case B, a column of the current tile: the minimum of what the point before left there with the tile's column minimum. -/
theorem colB_in (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : ¬cond0_2 i) (hc3 : ¬cond0_3 i) (x0 : Vec F S4x512x3 .f32) (x1 : Vec F S4x512x3 .f32) (xs0 : Vec F S4x512 .f32) (xs1 : Vec F S4x4096 .f32) (o : ℕ) (hoff : k0_off1 i = ![0, o]) (y : S4x4096.Idx) (x : S4x512.Idx)
    (hx : ∀ a, (y a).val = (![0, o] : Fin 2 → ℕ) a + (x a).val) :
    sout0_B_1 c i arg3 harg3 arg4 harg4 arg5 harg5 arg6 harg6 arg7 harg7 arg8 harg8 hc0 hc1 hc2 hc3 x0 x1 xs0 xs1 y
      = k0_pay2 (k0_pay7 x0 x1) (View.ld xs1 (Rect.unit (s := S4x4096) (k0_off1 i) S4x512.size (Facts₀.k0_off1_inb i))) x := by
  unfold sout0_B_1 kernelRun0_B
  dsimp only
  sl_unfold_words
  refine (View.read_writes_cons_unit_of_mem arg8.view (harg8.unread xs1) _ _ [] y x hoff hx).trans ?_
  simp only [View.readAt_eq_ld, harg3.read_unread, harg4.read_unread, harg8.read_unread, View.ld_unit_zero (S := S4x512x3) zeros3]

/-- Case B, a column outside the current tile: left as the point before left it. -/
theorem colB_out (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : ¬cond0_2 i) (hc3 : ¬cond0_3 i) (x0 : Vec F S4x512x3 .f32) (x1 : Vec F S4x512x3 .f32) (xs0 : Vec F S4x512 .f32) (xs1 : Vec F S4x4096 .f32) (o : ℕ) (hoff : k0_off1 i = ![0, o]) (y : S4x4096.Idx)
    (h : (y 1).val < o ∨ o + 512 ≤ (y 1).val) :
    sout0_B_1 c i arg3 harg3 arg4 harg4 arg5 harg5 arg6 harg6 arg7 harg7 arg8 harg8 hc0 hc1 hc2 hc3 x0 x1 xs0 xs1 y = xs1 y := by
  unfold sout0_B_1 kernelRun0_B
  dsimp only
  sl_unfold_words
  refine (View.read_writes_cons_unit_of_not_mem arg8.view (harg8.unread xs1) _ _ [] y hoff 1 (by exact h)).trans ?_
  rw [View.writes_nil, harg8.read_unread]

/-- Case C, a column of the current tile: the minimum of what the point before left there with the tile's column minimum. -/
theorem colC_in (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : ¬cond0_3 i) (x0 : Vec F S4x512x3 .f32) (x1 : Vec F S4x512x3 .f32) (xs0 : Vec F S4x512 .f32) (xs1 : Vec F S4x4096 .f32) (o : ℕ) (hoff : k0_off1 i = ![0, o]) (y : S4x4096.Idx) (x : S4x512.Idx)
    (hx : ∀ a, (y a).val = (![0, o] : Fin 2 → ℕ) a + (x a).val) :
    sout0_C_1 c i arg3 harg3 arg4 harg4 arg5 harg5 arg6 harg6 arg7 harg7 arg8 harg8 hc0 hc1 hc2 hc3 x0 x1 xs0 xs1 y
      = k0_pay2 (k0_pay7 x0 x1) (View.ld xs1 (Rect.unit (s := S4x4096) (k0_off1 i) S4x512.size (Facts₀.k0_off1_inb i))) x := by
  unfold sout0_C_1 kernelRun0_C
  dsimp only
  sl_unfold_words
  refine (View.read_writes_cons_unit_of_mem arg8.view (harg8.unread xs1) _ _ [] y x hoff hx).trans ?_
  simp only [View.readAt_eq_ld, harg3.read_unread, harg4.read_unread, harg8.read_unread, View.ld_unit_zero (S := S4x512x3) zeros3]

/-- Case C, a column outside the current tile: left as the point before left it. -/
theorem colC_out (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : ¬cond0_3 i) (x0 : Vec F S4x512x3 .f32) (x1 : Vec F S4x512x3 .f32) (xs0 : Vec F S4x512 .f32) (xs1 : Vec F S4x4096 .f32) (o : ℕ) (hoff : k0_off1 i = ![0, o]) (y : S4x4096.Idx)
    (h : (y 1).val < o ∨ o + 512 ≤ (y 1).val) :
    sout0_C_1 c i arg3 harg3 arg4 harg4 arg5 harg5 arg6 harg6 arg7 harg7 arg8 harg8 hc0 hc1 hc2 hc3 x0 x1 xs0 xs1 y = xs1 y := by
  unfold sout0_C_1 kernelRun0_C
  dsimp only
  sl_unfold_words
  refine (View.read_writes_cons_unit_of_not_mem arg8.view (harg8.unread xs1) _ _ [] y hoff 1 (by exact h)).trans ?_
  rw [View.writes_nil, harg8.read_unread]

/-- Case D, a column of the current tile: the minimum of what the point before left there with the tile's column minimum. -/
theorem colD_in (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : cond0_1 i) (hc2 : ¬cond0_2 i) (hc3 : ¬cond0_3 i) (x0 : Vec F S4x512x3 .f32) (x1 : Vec F S4x512x3 .f32) (xs1 : Vec F S4x4096 .f32) (o : ℕ) (hoff : k0_off1 i = ![0, o]) (y : S4x4096.Idx) (x : S4x512.Idx)
    (hx : ∀ a, (y a).val = (![0, o] : Fin 2 → ℕ) a + (x a).val) :
    sout0_D_1 c i arg3 harg3 arg4 harg4 arg5 harg5 arg6 harg6 arg7 harg7 arg8 harg8 hc0 hc1 hc2 hc3 x0 x1 xs1 y
      = k0_pay2 (k0_pay7 x0 x1) (View.ld xs1 (Rect.unit (s := S4x4096) (k0_off1 i) S4x512.size (Facts₀.k0_off1_inb i))) x := by
  unfold sout0_D_1 kernelRun0_D
  dsimp only
  sl_unfold_words
  refine (View.read_writes_cons_unit_of_mem arg8.view (harg8.unread xs1) _ _ [] y x hoff hx).trans ?_
  simp only [View.readAt_eq_ld, harg3.read_unread, harg4.read_unread, harg8.read_unread, View.ld_unit_zero (S := S4x512x3) zeros3]

/-- Case D, a column outside the current tile: left as the point before left it. -/
theorem colD_out (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : cond0_1 i) (hc2 : ¬cond0_2 i) (hc3 : ¬cond0_3 i) (x0 : Vec F S4x512x3 .f32) (x1 : Vec F S4x512x3 .f32) (xs1 : Vec F S4x4096 .f32) (o : ℕ) (hoff : k0_off1 i = ![0, o]) (y : S4x4096.Idx)
    (h : (y 1).val < o ∨ o + 512 ≤ (y 1).val) :
    sout0_D_1 c i arg3 harg3 arg4 harg4 arg5 harg5 arg6 harg6 arg7 harg7 arg8 harg8 hc0 hc1 hc2 hc3 x0 x1 xs1 y = xs1 y := by
  unfold sout0_D_1 kernelRun0_D
  dsimp only
  sl_unfold_words
  refine (View.read_writes_cons_unit_of_not_mem arg8.view (harg8.unread xs1) _ _ [] y hoff 1 (by exact h)).trans ?_
  rw [View.writes_nil, harg8.read_unread]

/-- Case E, a column of the current tile: the minimum of what the point before left there with the tile's column minimum. -/
theorem colE_in (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : cond0_3 i) (x0 : Vec F S4x512x3 .f32) (x1 : Vec F S4x512x3 .f32) (xs0 : Vec F S4x512 .f32) (xs1 : Vec F S4x4096 .f32) (o : ℕ) (hoff : k0_off1 i = ![0, o]) (y : S4x4096.Idx) (x : S4x512.Idx)
    (hx : ∀ a, (y a).val = (![0, o] : Fin 2 → ℕ) a + (x a).val) :
    sout0_E_1 c i arg3 harg3 arg4 harg4 arg5 harg5 arg6 harg6 arg7 harg7 arg8 harg8 hc0 hc1 hc2 hc3 x0 x1 xs0 xs1 y
      = k0_pay2 (k0_pay7 x0 x1) (View.ld xs1 (Rect.unit (s := S4x4096) (k0_off1 i) S4x512.size (Facts₀.k0_off1_inb i))) x := by
  unfold sout0_E_1 kernelRun0_E
  dsimp only
  sl_unfold_words
  refine (View.read_writes_cons_unit_of_mem arg8.view (harg8.unread xs1) _ _ [] y x hoff hx).trans ?_
  simp only [View.readAt_eq_ld, harg3.read_unread, harg4.read_unread, harg8.read_unread, View.ld_unit_zero (S := S4x512x3) zeros3]

/-- Case E, a column outside the current tile: left as the point before left it. -/
theorem colE_out (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : cond0_3 i) (x0 : Vec F S4x512x3 .f32) (x1 : Vec F S4x512x3 .f32) (xs0 : Vec F S4x512 .f32) (xs1 : Vec F S4x4096 .f32) (o : ℕ) (hoff : k0_off1 i = ![0, o]) (y : S4x4096.Idx)
    (h : (y 1).val < o ∨ o + 512 ≤ (y 1).val) :
    sout0_E_1 c i arg3 harg3 arg4 harg4 arg5 harg5 arg6 harg6 arg7 harg7 arg8 harg8 hc0 hc1 hc2 hc3 x0 x1 xs0 xs1 y = xs1 y := by
  unfold sout0_E_1 kernelRun0_E
  dsimp only
  sl_unfold_words
  refine (View.read_writes_cons_unit_of_not_mem arg8.view (harg8.unread xs1) _ _ [] y hoff 1 (by exact h)).trans ?_
  rw [View.writes_nil, harg8.read_unread]

/-- Case A, a column of the current tile: the minimum of +∞, just stored over every column, with the tile's column minimum. -/
theorem colA_in (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : cond0_0 i) (hc1 : cond0_1 i) (hc2 : ¬cond0_2 i) (hc3 : ¬cond0_3 i) (x0 : Vec F S4x512x3 .f32) (x1 : Vec F S4x512x3 .f32) (o : ℕ) (hoff : k0_off1 i = ![0, o]) (y : S4x4096.Idx) (x : S4x512.Idx)
    (hx : ∀ a, (y a).val = (![0, o] : Fin 2 → ℕ) a + (x a).val) :
    sout0_A_1 c i arg3 harg3 arg4 harg4 arg5 harg5 arg6 harg6 arg7 harg7 arg8 harg8 hc0 hc1 hc2 hc3 x0 x1 y
      = k0_pay2 (k0_pay7 x0 x1) (View.ld (k0_pay5 (F := F)) (Rect.unit (s := S4x4096) (k0_off1 i) S4x512.size (Facts₀.k0_off1_inb i))) x := by
  unfold sout0_A_1 kernelRun0_A
  dsimp only
  sl_unfold_words
  refine (View.read_writes_cons_unit_of_mem VS0_1 VS0_1.junk _ _ _ y x hoff hx).trans ?_
  simp only [View.readAt_eq_ld, harg3.read_unread, harg4.read_unread, View.ld_unit_zero (S := S4x512x3) zeros3,
    View.read_writes_junk_eq_canon, View.canon_unit_zero (S := S4x4096) zeros2]

/-- Case A, a column outside the current tile: +∞, just stored. -/
theorem colA_out (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : cond0_0 i) (hc1 : cond0_1 i) (hc2 : ¬cond0_2 i) (hc3 : ¬cond0_3 i) (x0 : Vec F S4x512x3 .f32) (x1 : Vec F S4x512x3 .f32) (o : ℕ) (hoff : k0_off1 i = ![0, o]) (y : S4x4096.Idx)
    (h : (y 1).val < o ∨ o + 512 ≤ (y 1).val) :
    sout0_A_1 c i arg3 harg3 arg4 harg4 arg5 harg5 arg6 harg6 arg7 harg7 arg8 harg8 hc0 hc1 hc2 hc3 x0 x1 y = k0_pay5 (F := F) y := by
  unfold sout0_A_1 kernelRun0_A
  dsimp only
  sl_unfold_words
  refine (View.read_writes_cons_unit_of_not_mem VS0_1 VS0_1.junk _ _ _ y hoff 1 (by exact h)).trans ?_
  rw [View.read_writes_junk_eq_canon, View.canon_unit_zero (S := S4x4096) zeros2]

/-- Case C writes out, for the rows of the current block of `y`, the distances of the row minima it has just updated. -/
theorem outC2 (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : ¬cond0_3 i) (x0 : Vec F S4x512x3 .f32) (x1 : Vec F S4x512x3 .f32) (xs0 : Vec F S4x512 .f32) (xs1 : Vec F S4x4096 .f32) : out0_C_2 c i arg3 harg3 arg4 harg4 arg5 harg5 arg6 harg6 arg7 harg7 arg8 harg8 hc0 hc1 hc2 hc3 x0 x1 xs0 xs1 = k0_pay3 (k0_pay1 (k0_pay8 x0 x1) xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero (S := S4x1x512) zeros3, View.readCov_unit_zero (S := S4x512) _ zeros2]
  simp only [View.readAt_eq_ld, harg3.read_unread, harg4.read_unread, harg7.read_unread, View.ld_unit_zero (S := S4x512x3) zeros3, View.ld_unit_zero (S := S4x512) zeros2]

/-- Case E writes out, for the rows of the current block of `y`, the distances of the row minima it has just updated. -/
theorem outE2 (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : cond0_3 i) (x0 : Vec F S4x512x3 .f32) (x1 : Vec F S4x512x3 .f32) (xs0 : Vec F S4x512 .f32) (xs1 : Vec F S4x4096 .f32) : out0_E_2 c i arg3 harg3 arg4 harg4 arg5 harg5 arg6 harg6 arg7 harg7 arg8 harg8 hc0 hc1 hc2 hc3 x0 x1 xs0 xs1 = k0_pay3 (k0_pay1 (k0_pay8 x0 x1) xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero (S := S4x1x512) zeros3, View.readCov_unit_zero (S := S4x512) _ zeros2]
  simp only [View.readAt_eq_ld, harg3.read_unread, harg4.read_unread, harg7.read_unread, View.ld_unit_zero (S := S4x512x3) zeros3, View.ld_unit_zero (S := S4x512) zeros2]

/-- Case E writes out, for every point of `x`, the distances of the column minima it has just updated. -/
theorem outE3 (c : Dev nD) (i : grid0.Coords) (arg3 : Memref sig .tc .vmem S4x512x3 .f32) (harg3 : arg3.IsWhole) (arg4 : Memref sig .tc .vmem S4x512x3 .f32) (harg4 : arg4.IsWhole) (arg5 : Memref sig .tc .vmem S4x1x512 .f32) (harg5 : arg5.IsWhole) (arg6 : Memref sig .tc .vmem S4x1x4096 .f32) (harg6 : arg6.IsWhole) (arg7 : Memref sig .tc .vmem S4x512 .f32) (harg7 : arg7.IsWhole) (arg8 : Memref sig .tc .vmem S4x4096 .f32) (harg8 : arg8.IsWhole) (hc0 : ¬cond0_0 i) (hc1 : ¬cond0_1 i) (hc2 : cond0_2 i) (hc3 : cond0_3 i) (x0 : Vec F S4x512x3 .f32) (x1 : Vec F S4x512x3 .f32) (xs0 : Vec F S4x512 .f32) (xs1 : Vec F S4x4096 .f32) : out0_E_3 c i arg3 harg3 arg4 harg4 arg5 harg5 arg6 harg6 arg7 harg7 arg8 harg8 hc0 hc1 hc2 hc3 x0 x1 xs0 xs1 = k0_pay4 (sout0_E_1 c i arg3 harg3 arg4 harg4 arg5 harg5 arg6 harg6 arg7 harg7 arg8 harg8 hc0 hc1 hc2 hc3 x0 x1 xs0 xs1) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold sout0_E_1 kernelRun0_E
  dsimp only
  sl_unfold_words
  rw [View.canon_unit_zero (S := S4x1x4096) zeros3]
  simp only [View.readAt_eq_ld, View.ld_unit_zero (S := S4x4096) zeros2]

end Cert.KernelIdeal.CaseValues
end
-- ==== Proof.Accumulate.lean ====
/-
  The two running minima, point by point.

  The grid is two batch groups of eight by eight tiles; point `n` is group `n / 64`, row of tiles `n / 8 % 8` (a block of 512
  points of `y`), column of tiles `n % 8` (a block of 512 points of `x`). After point `n` the row minima hold, for each
  point of the current block of `y`, the least squared distance to the first `512 (n % 8 + 1)` points of `x`; the column
  minima hold, for each point of `x`, the least squared distance to the blocks of `y` met so far in the group — one block
  more for the columns the current row of tiles has already reached than for the others. Each is stated by the universal
  property of a least value (below it = below everything it is taken over), so that one step is `le_min_iff` and the
  arithmetic of the indices. The induction runs over the point, through the five cases the body's conditionals make.
-/
import proofs.«117512_j83442624626996_2_alg».proof.Proof.Gen.KernelIdeal.Frame
import proofs.«117512_j83442624626996_2_alg».proof.Proof.TileMath
import proofs.«117512_j83442624626996_2_alg».proof.Proof.CaseValues
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Chamfer

variable (m : (ℓ : Loc nD τ sig) → Buf (Elt Ideal) ℓ)

/-- Point `t` of the grid is batch group `t / 64`, block `t / 8 % 8` of `y`, block `t % 8` of `x`: where each window's
    block sits at `t`. -/
theorem ywin : ∀ t : Fin cfg0.N, win0_0.index t 0 = t.val / 64 ∧ win0_0.index t 1 = t.val / 8 % 8 ∧ win0_0.index t 2 = 0 :=
  (by decide +kernel : ∀ t : Fin grid0.N, win0_0.index t 0 = t.val / 64 ∧ win0_0.index t 1 = t.val / 8 % 8 ∧ win0_0.index t 2 = 0)
theorem xwin : ∀ t : Fin cfg0.N, win0_1.index t 0 = t.val / 64 ∧ win0_1.index t 1 = t.val % 8 ∧ win0_1.index t 2 = 0 :=
  (by decide +kernel : ∀ t : Fin grid0.N, win0_1.index t 0 = t.val / 64 ∧ win0_1.index t 1 = t.val % 8 ∧ win0_1.index t 2 = 0)
/-- The columns the body updates at `t` start at `512 (t % 8)`. -/
theorem tileOff : ∀ t : Fin cfg0.N, k0_off1 (grid0.coords t) = ![0, 512 * (t.val % 8)] :=
  (by decide +kernel : ∀ t : Fin grid0.N, k0_off1 (grid0.coords t) = ![0, 512 * (t.val % 8)])

/-- An entry of the `y` block at `t` is an entry of `y`: batch `4 (t / 64) + b`, point `512 (t / 8 % 8) + r`. -/
theorem yblk_apply (c : Dev nD) (t : Fin cfg0.N) (j : S4x512x3.Idx) (i : S8x4096x3.Idx)
    (h0 : (i 0).val = 4 * (t.val / 64) + (j 0).val) (h1 : (i 1).val = 512 * (t.val / 8 % 8) + (j 1).val)
    (h2 : (i 2).val = (j 2).val) :
    (iblk m c 0 t : S4x512x3.Idx → EReal) j = V m c main_arg1 i := by
  unfold iblk
  rw [View.read_apply]
  show V m c main_arg1 _ = V m c main_arg1 i
  refine congrArg _ (funext fun a => Fin.ext ?_)
  match a with
  | ⟨0, _⟩ => show win0_0.index t 0 * 4 + 1 * (j 0).val = (i 0).val; rw [(ywin t).1, h0]; omega
  | ⟨1, _⟩ => show win0_0.index t 1 * 512 + 1 * (j 1).val = (i 1).val; rw [(ywin t).2.1, h1]; omega
  | ⟨2, _⟩ => show win0_0.index t 2 * 3 + 1 * (j 2).val = (i 2).val; rw [(ywin t).2.2, h2]; omega

/-- An entry of the `x` block at `t` is an entry of `x`: batch `4 (t / 64) + b`, point `512 (t % 8) + s`. -/
theorem xblk_apply (c : Dev nD) (t : Fin cfg0.N) (j : S4x512x3.Idx) (i : S8x4096x3.Idx)
    (h0 : (i 0).val = 4 * (t.val / 64) + (j 0).val) (h1 : (i 1).val = 512 * (t.val % 8) + (j 1).val)
    (h2 : (i 2).val = (j 2).val) :
    (iblk m c 1 t : S4x512x3.Idx → EReal) j = V m c main_arg0 i := by
  unfold iblk
  rw [View.read_apply]
  show V m c main_arg0 _ = V m c main_arg0 i
  refine congrArg _ (funext fun a => Fin.ext ?_)
  match a with
  | ⟨0, _⟩ => show win0_1.index t 0 * 4 + 1 * (j 0).val = (i 0).val; rw [(xwin t).1, h0]; omega
  | ⟨1, _⟩ => show win0_1.index t 1 * 512 + 1 * (j 1).val = (i 1).val; rw [(xwin t).2.1, h1]; omega
  | ⟨2, _⟩ => show win0_1.index t 2 * 3 + 1 * (j 2).val = (i 2).val; rw [(xwin t).2.2, h2]; omega

/-- An entry of the tile at `t` is the squared distance between the two points it pairs. -/
theorem tile_sqd (c : Dev nD) (t : Fin cfg0.N) (b : Fin 4) (r s : Fin 512) (B : Fin 8) (P Q : Fin 4096)
    (hB : B.val = 4 * (t.val / 64) + b.val) (hP : P.val = 512 * (t.val / 8 % 8) + r.val)
    (hQ : Q.val = 512 * (t.val % 8) + s.val) :
    k0_pay7 (F := Ideal) (iblk m c 0 t) (iblk m c 1 t) (ix3 b r s) = sqd (V m c main_arg0) (V m c main_arg1) B P Q := by
  refine (Tile.tile_apply (iblk m c 0 t) (iblk m c 1 t) b r s).trans ?_
  rw [yblk_apply m c t (ix3 b r 0) (ix3 B P 0) hB hP rfl, yblk_apply m c t (ix3 b r 1) (ix3 B P 1) hB hP rfl,
    yblk_apply m c t (ix3 b r 2) (ix3 B P 2) hB hP rfl, xblk_apply m c t (ix3 b s 0) (ix3 B Q 0) hB hQ rfl,
    xblk_apply m c t (ix3 b s 1) (ix3 B Q 1) hB hQ rfl, xblk_apply m c t (ix3 b s 2) (ix3 B Q 2) hB hQ rfl]
  rfl

/-- The row minima after point `n`: at row `r` of batch `b` of the current block of `y` — point `P` of batch `B` —, the least
    squared distance to the points of `x` in the blocks met so far on this row of tiles, the first `512 (n % 8 + 1)`. -/
def RowInv (c : Dev nD) (n : ℕ) (R : S4x512.Idx → EReal) : Prop :=
  ∀ (b : Fin 4) (r : Fin 512) (B : Fin 8) (P : Fin 4096), B.val = 4 * (n / 64) + b.val → P.val = 512 * (n / 8 % 8) + r.val →
    ∀ z : EReal, z ≤ R (ix2 b r) ↔
      ∀ q : Fin 4096, q.val < 512 * (n % 8 + 1) → z ≤ sqd (V m c main_arg0) (V m c main_arg1) B P q

/-- The column minima after point `n`: at point `q` of `x` in batch `B`, the least squared distance to the points of `y` met
    so far in this batch group: one block of `y` more for the columns the current row of tiles has reached than for the rest. -/
def ColInv (c : Dev nD) (n : ℕ) (C : S4x4096.Idx → EReal) : Prop :=
  ∀ (b : Fin 4) (q : Fin 4096) (B : Fin 8), B.val = 4 * (n / 64) + b.val →
    ∀ z : EReal, z ≤ C (ix2 b q) ↔
      ∀ p : Fin 4096, p.val < (if q.val < 512 * (n % 8 + 1) then 512 * (n / 8 % 8 + 1) else 512 * (n / 8 % 8)) →
        z ≤ sqd (V m c main_arg0) (V m c main_arg1) B p q

/-- One point's update of the row minima: from the minima over the first `512 (t % 8)` points of `x` to those over the
    first `512 (t % 8 + 1)`. -/
theorem rowStep (c : Dev nD) (t : Fin cfg0.N) (old : S4x512.Idx → EReal)
    (hold : ∀ (b : Fin 4) (r : Fin 512) (B : Fin 8) (P : Fin 4096), B.val = 4 * (t.val / 64) + b.val →
      P.val = 512 * (t.val / 8 % 8) + r.val → ∀ z : EReal, z ≤ old (ix2 b r) ↔
        ∀ q : Fin 4096, q.val < 512 * (t.val % 8) → z ≤ sqd (V m c main_arg0) (V m c main_arg1) B P q) :
    RowInv m c t.val (k0_pay1 (F := Ideal) (k0_pay8 (iblk m c 0 t) (iblk m c 1 t)) old) := by
  intro b r B P hB hP z
  rw [Tile.rowUpd_apply (k0_pay8 (F := Ideal) (iblk m c 0 t) (iblk m c 1 t)) old (ix2 b r), le_min_iff,
    hold b r B P hB hP z, Tile.rowPart_le (iblk m c 0 t) (iblk m c 1 t) b r z]
  constructor
  · rintro ⟨h1, h2⟩ q hq
    by_cases hlt : q.val < 512 * (t.val % 8)
    · exact h1 q hlt
    · have hs : q.val - 512 * (t.val % 8) < 512 := by omega
      have h3 := h2 ⟨q.val - 512 * (t.val % 8), hs⟩
      rwa [tile_sqd m c t b r ⟨q.val - 512 * (t.val % 8), hs⟩ B P q hB hP (by show q.val = _ + (q.val - _); omega)] at h3
  · intro h
    refine ⟨fun q hq => h q (by omega), fun s => ?_⟩
    have hQ : 512 * (t.val % 8) + s.val < 4096 := by have := s.isLt; omega
    rw [tile_sqd m c t b r s B P ⟨512 * (t.val % 8) + s.val, hQ⟩ hB hP rfl]
    exact h _ (by show 512 * (t.val % 8) + s.val < _; have := s.isLt; omega)

/-- One point's update of the column minima: the columns of the current tile take one more block of `y` in, the others
    stay. -/
theorem colStep (c : Dev nD) (t : Fin cfg0.N) (old new : S4x4096.Idx → EReal)
    (hin : ∀ (y : S4x4096.Idx) (x : S4x512.Idx), (∀ a, (y a).val = (![0, 512 * (t.val % 8)] : Fin 2 → ℕ) a + (x a).val) →
      new y = k0_pay2 (F := Ideal) (k0_pay7 (iblk m c 0 t) (iblk m c 1 t))
        (View.ld old (Rect.unit (s := S4x4096) (k0_off1 (grid0.coords t)) S4x512.size (Facts₀.k0_off1_inb (grid0.coords t)))) x)
    (hout : ∀ y : S4x4096.Idx, ((y 1).val < 512 * (t.val % 8) ∨ 512 * (t.val % 8) + 512 ≤ (y 1).val) → new y = old y)
    (hold : ∀ (b : Fin 4) (q : Fin 4096) (B : Fin 8), B.val = 4 * (t.val / 64) + b.val → ∀ z : EReal, z ≤ old (ix2 b q) ↔
      ∀ p : Fin 4096, p.val < (if q.val < 512 * (t.val % 8) then 512 * (t.val / 8 % 8 + 1) else 512 * (t.val / 8 % 8)) →
        z ≤ sqd (V m c main_arg0) (V m c main_arg1) B p q) :
    ColInv m c t.val new := by
  intro b q B hB z
  by_cases hq : 512 * (t.val % 8) ≤ q.val ∧ q.val < 512 * (t.val % 8) + 512
  · have hs : q.val - 512 * (t.val % 8) < 512 := by omega
    rw [hin (ix2 b q) (ix2 b ⟨q.val - 512 * (t.val % 8), hs⟩) (fun a => by
      match a with
      | ⟨0, _⟩ => show b.val = 0 + b.val; omega
      | ⟨1, _⟩ => show q.val = 512 * (t.val % 8) + (q.val - 512 * (t.val % 8)); omega)]
    rw [Tile.colUpd_le _ _ b ⟨q.val - 512 * (t.val % 8), hs⟩ z]
    have hld : View.ld (Val := Elt Ideal) (e' := EltTy.f32) old (Rect.unit (s := S4x4096) (k0_off1 (grid0.coords t)) S4x512.size (Facts₀.k0_off1_inb (grid0.coords t)))
        (ix2 b ⟨q.val - 512 * (t.val % 8), hs⟩) = old (ix2 b q) := by
      refine congrArg old (funext fun a => Fin.ext ?_)
      match a with
      | ⟨0, _⟩ => show k0_off1 (grid0.coords t) 0 + 1 * b.val = b.val; rw [tileOff t]; show 0 + 1 * b.val = b.val; omega
      | ⟨1, _⟩ => show k0_off1 (grid0.coords t) 1 + 1 * (q.val - 512 * (t.val % 8)) = q.val; rw [tileOff t]; show 512 * (t.val % 8) + 1 * (q.val - 512 * (t.val % 8)) = q.val; omega
    rw [hld, hold b q B hB z, if_neg (by omega), if_pos (by omega)]
    constructor
    · rintro ⟨h1, h2⟩ p hp
      by_cases hlt : p.val < 512 * (t.val / 8 % 8)
      · exact h1 p hlt
      · have hr : p.val - 512 * (t.val / 8 % 8) < 512 := by omega
        have h3 := h2 ⟨p.val - 512 * (t.val / 8 % 8), hr⟩
        rwa [tile_sqd m c t b ⟨p.val - 512 * (t.val / 8 % 8), hr⟩ ⟨q.val - 512 * (t.val % 8), hs⟩ B p q hB
          (by show p.val = _ + (p.val - _); omega) (by show q.val = _ + (q.val - _); omega)] at h3
    · intro h
      refine ⟨fun p hp => h p (by omega), fun r => ?_⟩
      have hP : 512 * (t.val / 8 % 8) + r.val < 4096 := by have := r.isLt; omega
      rw [tile_sqd m c t b r ⟨q.val - 512 * (t.val % 8), hs⟩ B ⟨512 * (t.val / 8 % 8) + r.val, hP⟩ q hB rfl
        (by show q.val = _ + (q.val - _); omega)]
      exact h _ (by show 512 * (t.val / 8 % 8) + r.val < _; have := r.isLt; omega)
  · rw [hout (ix2 b q) (by show q.val < _ ∨ _ ≤ q.val; omega), hold b q B hB z]
    by_cases h1 : q.val < 512 * (t.val % 8)
    · rw [if_pos h1, if_pos (by omega)]
    · rw [if_neg h1, if_neg (by omega)]

/-- Case A, the first tile of a batch group: both minima start from +∞. -/
theorem inv_A (c : Dev nD) (t : Fin cfg0.N) (h0 : t.val % 64 = 0) (h1 : t.val % 8 = 0) (h2 : ¬t.val % 8 = 7) (h3 : ¬t.val % 64 = 63)
     :
    RowInv m c t.val (outsAt0 m c t.val t.isLt).2.2.1 ∧ ColInv m c t.val (outsAt0 m c t.val t.isLt).2.2.2 := by
  have hN : cfg0.N = 128 := N_0
  have ht := t.isLt
  rw [outsAt0_A m c t h0 h1 h2 h3]
  dsimp only
  constructor
  · rw [CaseValues.rowA c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)]
    exact rowStep m c t (k0_pay6 (F := Ideal)) (fun b r B P hB hP z => by
      rw [Tile.fillRow_apply]
      exact ⟨fun _ q hq => absurd hq (by omega), fun _ => le_top⟩)
  · exact colStep m c t (k0_pay5 (F := Ideal)) _
      (fun y x hx => CaseValues.colA_in c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (512 * (t.val % 8)) (tileOff t) y x hx)
      (fun y h => CaseValues.colA_out c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (512 * (t.val % 8)) (tileOff t) y h)
      (fun b q B hB z => by
      rw [Tile.fillCol_apply]
      exact ⟨fun _ p hp => absurd hp (by rw [if_neg (by omega)]; omega), fun _ => le_top⟩)

/-- Case B, a tile inside a row of tiles: both minima go on from what the point before left. -/
theorem inv_B (c : Dev nD) (t : Fin cfg0.N) (h0 : ¬t.val % 64 = 0) (h1 : ¬t.val % 8 = 0) (h2 : ¬t.val % 8 = 7) (h3 : ¬t.val % 64 = 63)
    (ih : RowInv m c (t.val - 1) (outsAt0 m c (t.val - 1) (Nat.lt_of_le_of_lt (Nat.sub_le _ _) t.isLt)).2.2.1 ∧ ColInv m c (t.val - 1) (outsAt0 m c (t.val - 1) (Nat.lt_of_le_of_lt (Nat.sub_le _ _) t.isLt)).2.2.2) :
    RowInv m c t.val (outsAt0 m c t.val t.isLt).2.2.1 ∧ ColInv m c t.val (outsAt0 m c t.val t.isLt).2.2.2 := by
  have hN : cfg0.N = 128 := N_0
  have ht := t.isLt
  rw [outsAt0_B m c t h0 h1 h2 h3]
  dsimp only
  constructor
  · rw [CaseValues.rowB c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact rowStep m c t (outsAt0 m c (t.val - 1) (Nat.lt_of_le_of_lt (Nat.sub_le _ _) t.isLt)).2.2.1 (fun b r B P hB hP z => by
      have e : 512 * ((t.val - 1) % 8 + 1) = 512 * (t.val % 8) := by omega
      have hh := ih.1 b r B P (by omega) (by omega) z
      rwa [e] at hh)
  · exact colStep m c t (outsAt0 m c (t.val - 1) (Nat.lt_of_le_of_lt (Nat.sub_le _ _) t.isLt)).2.2.2 _
      (fun y x hx => CaseValues.colB_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (512 * (t.val % 8)) (tileOff t) y x hx)
      (fun y h => CaseValues.colB_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (512 * (t.val % 8)) (tileOff t) y h)
      (fun b q B hB z => by
      have e1 : (t.val - 1) % 8 + 1 = t.val % 8 := by omega
      have e2 : (t.val - 1) / 8 % 8 = t.val / 8 % 8 := by omega
      have hh := ih.2 b q B (by omega) z
      rwa [e1, e2] at hh)

/-- Case C, the last tile of a row of tiles that is not the group's last: both minima go on from what the point before left. -/
theorem inv_C (c : Dev nD) (t : Fin cfg0.N) (h0 : ¬t.val % 64 = 0) (h1 : ¬t.val % 8 = 0) (h2 : t.val % 8 = 7) (h3 : ¬t.val % 64 = 63)
    (ih : RowInv m c (t.val - 1) (outsAt0 m c (t.val - 1) (Nat.lt_of_le_of_lt (Nat.sub_le _ _) t.isLt)).2.2.1 ∧ ColInv m c (t.val - 1) (outsAt0 m c (t.val - 1) (Nat.lt_of_le_of_lt (Nat.sub_le _ _) t.isLt)).2.2.2) :
    RowInv m c t.val (outsAt0 m c t.val t.isLt).2.2.1 ∧ ColInv m c t.val (outsAt0 m c t.val t.isLt).2.2.2 := by
  have hN : cfg0.N = 128 := N_0
  have ht := t.isLt
  rw [outsAt0_C m c t h0 h1 h2 h3]
  dsimp only
  constructor
  · rw [CaseValues.rowC c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact rowStep m c t (outsAt0 m c (t.val - 1) (Nat.lt_of_le_of_lt (Nat.sub_le _ _) t.isLt)).2.2.1 (fun b r B P hB hP z => by
      have e : 512 * ((t.val - 1) % 8 + 1) = 512 * (t.val % 8) := by omega
      have hh := ih.1 b r B P (by omega) (by omega) z
      rwa [e] at hh)
  · exact colStep m c t (outsAt0 m c (t.val - 1) (Nat.lt_of_le_of_lt (Nat.sub_le _ _) t.isLt)).2.2.2 _
      (fun y x hx => CaseValues.colC_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (512 * (t.val % 8)) (tileOff t) y x hx)
      (fun y h => CaseValues.colC_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (512 * (t.val % 8)) (tileOff t) y h)
      (fun b q B hB z => by
      have e1 : (t.val - 1) % 8 + 1 = t.val % 8 := by omega
      have e2 : (t.val - 1) / 8 % 8 = t.val / 8 % 8 := by omega
      have hh := ih.2 b q B (by omega) z
      rwa [e1, e2] at hh)

/-- Case D, the first tile of a later row of tiles: the row minima start again from +∞, the column minima go on. -/
theorem inv_D (c : Dev nD) (t : Fin cfg0.N) (h0 : ¬t.val % 64 = 0) (h1 : t.val % 8 = 0) (h2 : ¬t.val % 8 = 7) (h3 : ¬t.val % 64 = 63)
    (ih : RowInv m c (t.val - 1) (outsAt0 m c (t.val - 1) (Nat.lt_of_le_of_lt (Nat.sub_le _ _) t.isLt)).2.2.1 ∧ ColInv m c (t.val - 1) (outsAt0 m c (t.val - 1) (Nat.lt_of_le_of_lt (Nat.sub_le _ _) t.isLt)).2.2.2) :
    RowInv m c t.val (outsAt0 m c t.val t.isLt).2.2.1 ∧ ColInv m c t.val (outsAt0 m c t.val t.isLt).2.2.2 := by
  have hN : cfg0.N = 128 := N_0
  have ht := t.isLt
  rw [outsAt0_D m c t h0 h1 h2 h3]
  dsimp only
  constructor
  · rw [CaseValues.rowD c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2]
    exact rowStep m c t (k0_pay6 (F := Ideal)) (fun b r B P hB hP z => by
      rw [Tile.fillRow_apply]
      exact ⟨fun _ q hq => absurd hq (by omega), fun _ => le_top⟩)
  · exact colStep m c t (outsAt0 m c (t.val - 1) (Nat.lt_of_le_of_lt (Nat.sub_le _ _) t.isLt)).2.2.2 _
      (fun y x hx => CaseValues.colD_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (512 * (t.val % 8)) (tileOff t) y x hx)
      (fun y h => CaseValues.colD_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (512 * (t.val % 8)) (tileOff t) y h)
      (fun b q B hB z => by
      have e2 : 512 * ((t.val - 1) / 8 % 8 + 1) = 512 * (t.val / 8 % 8) := by omega
      have hh := ih.2 b q B (by omega) z
      rw [if_pos (by have := q.isLt; omega), e2] at hh
      rwa [if_neg (by omega)])

/-- Case E, the last tile of a batch group: both minima go on from what the point before left. -/
theorem inv_E (c : Dev nD) (t : Fin cfg0.N) (h0 : ¬t.val % 64 = 0) (h1 : ¬t.val % 8 = 0) (h2 : t.val % 8 = 7) (h3 : t.val % 64 = 63)
    (ih : RowInv m c (t.val - 1) (outsAt0 m c (t.val - 1) (Nat.lt_of_le_of_lt (Nat.sub_le _ _) t.isLt)).2.2.1 ∧ ColInv m c (t.val - 1) (outsAt0 m c (t.val - 1) (Nat.lt_of_le_of_lt (Nat.sub_le _ _) t.isLt)).2.2.2) :
    RowInv m c t.val (outsAt0 m c t.val t.isLt).2.2.1 ∧ ColInv m c t.val (outsAt0 m c t.val t.isLt).2.2.2 := by
  have hN : cfg0.N = 128 := N_0
  have ht := t.isLt
  rw [outsAt0_E m c t h0 h1 h2 h3]
  dsimp only
  constructor
  · rw [CaseValues.rowE c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact rowStep m c t (outsAt0 m c (t.val - 1) (Nat.lt_of_le_of_lt (Nat.sub_le _ _) t.isLt)).2.2.1 (fun b r B P hB hP z => by
      have e : 512 * ((t.val - 1) % 8 + 1) = 512 * (t.val % 8) := by omega
      have hh := ih.1 b r B P (by omega) (by omega) z
      rwa [e] at hh)
  · exact colStep m c t (outsAt0 m c (t.val - 1) (Nat.lt_of_le_of_lt (Nat.sub_le _ _) t.isLt)).2.2.2 _
      (fun y x hx => CaseValues.colE_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (512 * (t.val % 8)) (tileOff t) y x hx)
      (fun y h => CaseValues.colE_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (512 * (t.val % 8)) (tileOff t) y h)
      (fun b q B hB z => by
      have e1 : (t.val - 1) % 8 + 1 = t.val % 8 := by omega
      have e2 : (t.val - 1) / 8 % 8 = t.val / 8 % 8 := by omega
      have hh := ih.2 b q B (by omega) z
      rwa [e1, e2] at hh)

/-- After every point of the grid the two running minima are what the invariant says: by induction on the point. -/
theorem inv (c : Dev nD) : ∀ (n : ℕ) (hn : n < cfg0.N),
    RowInv m c n (outsAt0 m c n hn).2.2.1 ∧ ColInv m c n (outsAt0 m c n hn).2.2.2 := by
  intro n
  induction n with
  | zero => intro hn; exact inv_A m c ⟨0, hn⟩ rfl rfl (by show ¬(0 : ℕ) % 8 = 7; decide) (by show ¬(0 : ℕ) % 64 = 63; decide)
  | succ k ih =>
    intro hn
    have hN : cfg0.N = 128 := N_0
    have ihk := ih (Nat.lt_of_succ_lt hn)
    by_cases h0 : (k + 1) % 64 = 0
    · exact inv_A m c ⟨k + 1, hn⟩ h0 (by show (k + 1) % 8 = 0; omega) (by show ¬(k + 1) % 8 = 7; omega) (by show ¬(k + 1) % 64 = 63; omega)
    · by_cases h1 : (k + 1) % 8 = 0
      · exact inv_D m c ⟨k + 1, hn⟩ h0 h1 (by show ¬(k + 1) % 8 = 7; omega) (by show ¬(k + 1) % 64 = 63; omega) ihk
      · by_cases h2 : (k + 1) % 8 = 7
        · by_cases h3 : (k + 1) % 64 = 63
          · exact inv_E m c ⟨k + 1, hn⟩ h0 h1 h2 h3 ihk
          · exact inv_C m c ⟨k + 1, hn⟩ h0 h1 h2 h3 ihk
        · exact inv_B m c ⟨k + 1, hn⟩ h0 h1 h2 (by show ¬(k + 1) % 64 = 63; omega) ihk

end Cert.KernelIdeal.Accum
end
-- ==== Proof.KernelArrays.lean ====
/-
  The two arrays the region leaves: per point of `y` the distance to its nearest point of `x`, and per point of `x` the
  distance to its nearest point of `y`.

  The row minima are written out at the last tile of each row of tiles, when they have taken in every block of `x`: the
  least squared distance over all 4096 points, whose distance is what the first array holds for the 512 points of that
  block of `y`. The column minima are written out at the last tile of each batch group, when every column has taken in
  every block of `y`. The blocks written out tile each array, so the arrays hold these distances everywhere.
-/
import proofs.«117512_j83442624626996_2_alg».proof.Proof.Accumulate

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Chamfer Cert.KernelIdeal.Accum

variable (m : (ℓ : Loc nD τ sig) → Buf (Elt Ideal) ℓ)

/-- Where the two output windows' blocks sit at point `t`: the first array's at batch group `t / 64`, block `t / 8 % 8` of
    its 4096 entries; the second's at batch group `t / 64`, all 4096 entries. -/
theorem owin1 : ∀ t : Fin cfg0.N, win0_2.index t 0 = t.val / 64 ∧ win0_2.index t 1 = 0 ∧ win0_2.index t 2 = t.val / 8 % 8 :=
  (by decide +kernel : ∀ t : Fin grid0.N, win0_2.index t 0 = t.val / 64 ∧ win0_2.index t 1 = 0 ∧ win0_2.index t 2 = t.val / 8 % 8)
theorem owin2 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)

/-- At the last tile of a row of tiles the body writes out the distances of the row minima it has just updated. -/
theorem out1_eq (c : Dev nD) (t : Fin cfg0.N) (h2 : t.val % 8 = 7) :
    (outsAt0 m c t.val t.isLt).1 = k0_pay3 (F := Ideal) (outsAt0 m c t.val t.isLt).2.2.1 := by
  have hN : cfg0.N = 128 := N_0
  have ht := t.isLt
  have h0 : ¬t.val % 64 = 0 := by omega
  have h1 : ¬t.val % 8 = 0 := by omega
  by_cases h3 : t.val % 64 = 63
  · rw [outsAt0_E m c t h0 h1 h2 h3]
    dsimp only
    rw [CaseValues.outE2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, CaseValues.rowE c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
  · rw [outsAt0_C m c t h0 h1 h2 h3]
    dsimp only
    rw [CaseValues.outC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, CaseValues.rowC c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- At the last tile of a batch group the body writes out the distances of the column minima it has just updated. -/
theorem out2_eq (c : Dev nD) (t : Fin cfg0.N) (h3 : t.val % 64 = 63) :
    (outsAt0 m c t.val t.isLt).2.1 = k0_pay4 (F := Ideal) (outsAt0 m c t.val t.isLt).2.2.2 := by
  have hN : cfg0.N = 128 := N_0
  have ht := t.isLt
  have h0 : ¬t.val % 64 = 0 := by omega
  have h1 : ¬t.val % 8 = 0 := by omega
  have h2 : t.val % 8 = 7 := by omega
  rw [outsAt0_E m c t h0 h1 h2 h3]
  dsimp only
  rw [CaseValues.outE3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- After the last tile of a row of tiles the row minima are the least squared distances to ALL points of `x`. -/
theorem row_final (c : Dev nD) (t : Fin cfg0.N) (h2 : t.val % 8 = 7) (b : Fin 4) (r : Fin 512) (B : Fin 8) (P : Fin 4096)
    (hB : B.val = 4 * (t.val / 64) + b.val) (hP : P.val = 512 * (t.val / 8 % 8) + r.val) :
    (outsAt0 m c t.val t.isLt).2.2.1 (ix2 b r) = nearestX (V m c main_arg0) (V m c main_arg1) B P :=
  eq_of_forall_le_iff fun z => ((inv m c t.val t.isLt).1 b r B P hB hP z).trans
    ⟨fun h => Finset.le_inf_iff.mpr fun q _ => h q (by have := q.isLt; omega),
     fun h q _ => Finset.le_inf_iff.mp h q (Finset.mem_univ _)⟩

/-- After the last tile of a batch group the column minima are the least squared distances to ALL points of `y`. -/
theorem col_final (c : Dev nD) (t : Fin cfg0.N) (h3 : t.val % 64 = 63) (b : Fin 4) (q : Fin 4096) (B : Fin 8)
    (hB : B.val = 4 * (t.val / 64) + b.val) :
    (outsAt0 m c t.val t.isLt).2.2.2 (ix2 b q) = nearestY (V m c main_arg0) (V m c main_arg1) B q :=
  eq_of_forall_le_iff fun z => ((inv m c t.val t.isLt).2 b q B hB z).trans
    ⟨fun h => Finset.le_inf_iff.mpr fun p _ => h p (by have := p.isLt; have := q.isLt; split_ifs <;> omega),
     fun h p _ => Finset.le_inf_iff.mp h p (Finset.mem_univ _)⟩

/-- What the first array ends holding: per batch and point of `y`, the distance to its nearest point of `x`. -/
def o1 (c : Dev nD) : Buf (Elt Ideal) ((c : Thread nD τ).loc main_v0_0) :=
  fun i => dist (nearestX (V m c main_arg0) (V m c main_arg1) (i 0) (i 2))

/-- What the second array ends holding: per batch and point of `x`, the distance to its nearest point of `y`. -/
def o2 (c : Dev nD) : Buf (Elt Ideal) ((c : Thread nD τ).loc main_v0_1) :=
  fun i => dist (nearestY (V m c main_arg0) (V m c main_arg1) (i 0) (i 2))

/-- An entry of the block written out at the last tile of a row of tiles is the first array's entry there. -/
theorem blk1_entry (c : Dev nD) (t : Fin cfg0.N) (h2 : t.val % 8 = 7) (j : S4x1x512.Idx) (i : S8x1x4096.Idx)
    (h0 : (i 0).val = 4 * (t.val / 64) + (j 0).val) (h2' : (i 2).val = 512 * (t.val / 8 % 8) + (j 2).val) :
    k0_pay3 (F := Ideal) (outsAt0 m c t.val t.isLt).2.2.1 j = o1 m c i := by
  obtain ⟨b, u, r, rfl⟩ : ∃ (b : Fin 4) (u : Fin 1) (r : Fin 512), j = ix3 b u r := ⟨j 0, j 1, j 2, eq_ix3 j⟩
  obtain rfl : u = 0 := Subsingleton.elim _ _
  rw [Tile.rowDist_apply]
  exact congrArg dist (row_final m c t h2 b r (i 0) (i 2) h0 h2')

/-- An entry of the block written out at the last tile of a batch group is the second array's entry there. -/
theorem blk2_entry (c : Dev nD) (t : Fin cfg0.N) (h3 : t.val % 64 = 63) (j : S4x1x4096.Idx) (i : S8x1x4096.Idx)
    (h0 : (i 0).val = 4 * (t.val / 64) + (j 0).val) (h2' : (i 2).val = (j 2).val) :
    k0_pay4 (F := Ideal) (outsAt0 m c t.val t.isLt).2.2.2 j = o2 m c i := by
  obtain ⟨b, u, q, rfl⟩ : ∃ (b : Fin 4) (u : Fin 1) (q : Fin 4096), j = ix3 b u q := ⟨j 0, j 1, j 2, eq_ix3 j⟩
  obtain rfl : u = 0 := Subsingleton.elim _ _
  rw [Tile.colDist_apply]
  have e : (i 2) = q := Fin.ext h2'
  unfold o2
  rw [e]
  exact congrArg dist (col_final m c t h3 b q (i 0) h0)

/-- What a flushing point writes back of the first array is the block of `o1` there. -/
theorem flushed1 (c : Dev nD) (t : Fin cfg0.N) (hf : (cfg0.win 2).flush t = true) :
    (dats m 0 c).flushed 2 t = ((cfg0.win 2).blk t).view.read (Elt Ideal) (o1 m c) := by
  have h7 : t.val % 8 = 7 := (flush0_2 t).mp hf
  show (cfg0.win 2).cut (grid0.coords t) ((dats m 0 c).after 2 t) = _
  rw [after0_2, out1_eq m c t h7]
  funext j
  show k0_pay3 (F := Ideal) (outsAt0 m c t.val t.isLt).2.2.1 j = o1 m c (((cfg0.win 2).blk t).view.emb j)
  refine blk1_entry m c t h7 j _ ?_ ?_
  · show win0_2.index t 0 * 4 + 1 * (j 0).val = 4 * (t.val / 64) + (j 0).val
    rw [(owin1 t).1]; omega
  · show win0_2.index t 2 * 512 + 1 * (j 2).val = 512 * (t.val / 8 % 8) + (j 2).val
    rw [(owin1 t).2.2]; omega

/-- What a flushing point writes back of the second array is the block of `o2` there. -/
theorem flushed2 (c : Dev nD) (t : Fin cfg0.N) (hf : (cfg0.win 3).flush t = true) :
    (dats m 0 c).flushed 3 t = ((cfg0.win 3).blk t).view.read (Elt Ideal) (o2 m c) := by
  have h63 : t.val % 64 = 63 := (flush0_3 t).mp hf
  show (cfg0.win 3).cut (grid0.coords t) ((dats m 0 c).after 3 t) = _
  rw [after0_3, out2_eq m c t h63]
  funext j
  show k0_pay4 (F := Ideal) (outsAt0 m c t.val t.isLt).2.2.2 j = o2 m c (((cfg0.win 3).blk t).view.emb j)
  refine blk2_entry m c t h63 j _ ?_ ?_
  · show win0_3.index t 0 * 4 + 1 * (j 0).val = 4 * (t.val / 64) + (j 0).val
    rw [(owin2 t).1]; omega
  · show win0_3.index t 2 * 4096 + 1 * (j 2).val = (j 2).val
    rw [(owin2 t).2.2]; omega

/-- An index of the first array is in point `t`'s block iff each coordinate is in the block's range on its axis. -/
theorem mem_blk1 (t : Fin cfg0.N) (i : S8x1x4096.Idx) :
    i ∈ ((cfg0.win 2).blk t).view.set ↔ ∀ a : Fin 3, win0_2.index t a * S4x1x512.size a ≤ (i a).val ∧ (i a).val < win0_2.index t a * S4x1x512.size a + S4x1x512.size a := by
  show i ∈ ((View.whole main_v0_0).slice (win0_2.rect t)).set ↔ _
  rw [View.set_slice_whole, Rect.mem_set_unit]
  exact Iff.rfl

theorem mem_blk2 (t : Fin cfg0.N) (i : S8x1x4096.Idx) :
    i ∈ ((cfg0.win 3).blk t).view.set ↔ ∀ a : Fin 3, win0_3.index t a * S4x1x4096.size a ≤ (i a).val ∧ (i a).val < win0_3.index t a * S4x1x4096.size a + S4x1x4096.size a := by
  show i ∈ ((View.whole main_v0_1).slice (win0_3.rect t)).set ↔ _
  rw [View.set_slice_whole, Rect.mem_set_unit]
  exact Iff.rfl

/-- The first array after the run: the blocks written out at the last tile of each row of tiles tile it. -/
theorem final1 (c : Dev nD) : (dats m 0 c).arrAt 2 cfg0.N = o1 m c :=
  (dats m 0 c).arrAt_eq_of_cover 2 (o1 m c) (flushed1 m c) fun i => by
    have hN : cfg0.N = 128 := N_0
    have h0 : (i 0).val < 8 := (i 0).isLt
    have h1 : (i 1).val < 1 := (i 1).isLt
    have h2 : (i 2).val < 4096 := (i 2).isLt
    have hlt : 64 * ((i 0).val / 4) + 8 * ((i 2).val / 512) + 7 < cfg0.N := by rw [hN]; omega
    refine ⟨⟨64 * ((i 0).val / 4) + 8 * ((i 2).val / 512) + 7, hlt⟩, (flush0_2 _).mpr (by show (64 * ((i 0).val / 4) + 8 * ((i 2).val / 512) + 7) % 8 = 7; omega), ?_⟩
    rw [mem_blk1]
    obtain ⟨e0, e1, e2⟩ := owin1 ⟨64 * ((i 0).val / 4) + 8 * ((i 2).val / 512) + 7, hlt⟩
    intro a
    match a with
    | ⟨0, _⟩ => show win0_2.index _ 0 * 4 ≤ (i 0).val ∧ (i 0).val < win0_2.index _ 0 * 4 + 4; rw [e0]; show (64 * ((i 0).val / 4) + 8 * ((i 2).val / 512) + 7) / 64 * 4 ≤ _ ∧ _ < (64 * ((i 0).val / 4) + 8 * ((i 2).val / 512) + 7) / 64 * 4 + 4; omega
    | ⟨1, _⟩ => show win0_2.index _ 1 * 1 ≤ (i 1).val ∧ (i 1).val < win0_2.index _ 1 * 1 + 1; rw [e1]; omega
    | ⟨2, _⟩ => show win0_2.index _ 2 * 512 ≤ (i 2).val ∧ (i 2).val < win0_2.index _ 2 * 512 + 512; rw [e2]; show (64 * ((i 0).val / 4) + 8 * ((i 2).val / 512) + 7) / 8 % 8 * 512 ≤ _ ∧ _ < (64 * ((i 0).val / 4) + 8 * ((i 2).val / 512) + 7) / 8 % 8 * 512 + 512; omega

/-- The second array after the run: the two blocks written out at the last tile of each batch group tile it. -/
theorem final2 (c : Dev nD) : (dats m 0 c).arrAt 3 cfg0.N = o2 m c :=
  (dats m 0 c).arrAt_eq_of_cover 3 (o2 m c) (flushed2 m c) fun i => by
    have hN : cfg0.N = 128 := N_0
    have h0 : (i 0).val < 8 := (i 0).isLt
    have h1 : (i 1).val < 1 := (i 1).isLt
    have h2 : (i 2).val < 4096 := (i 2).isLt
    have hlt : 64 * ((i 0).val / 4) + 63 < cfg0.N := by rw [hN]; omega
    refine ⟨⟨64 * ((i 0).val / 4) + 63, hlt⟩, (flush0_3 _).mpr (by show (64 * ((i 0).val / 4) + 63) % 64 = 63; omega), ?_⟩
    rw [mem_blk2]
    obtain ⟨e0, e1, e2⟩ := owin2 ⟨64 * ((i 0).val / 4) + 63, hlt⟩
    intro a
    match a with
    | ⟨0, _⟩ => show win0_3.index _ 0 * 4 ≤ (i 0).val ∧ (i 0).val < win0_3.index _ 0 * 4 + 4; rw [e0]; show (64 * ((i 0).val / 4) + 63) / 64 * 4 ≤ _ ∧ _ < (64 * ((i 0).val / 4) + 63) / 64 * 4 + 4; omega
    | ⟨1, _⟩ => show win0_3.index _ 1 * 1 ≤ (i 1).val ∧ (i 1).val < win0_3.index _ 1 * 1 + 1; rw [e1]; omega
    | ⟨2, _⟩ => show win0_3.index _ 2 * 4096 ≤ (i 2).val ∧ (i 2).val < win0_3.index _ 2 * 4096 + 4096; rw [e2]; omega

end Cert.KernelIdeal.Arrays
end
-- ==== Proof.KernelTail.lean ====
/-
  What the program leaves in its result after the kernel region.

  The region writes two arrays of shape [8, 1, 4096]: one number per batch and point of `y`, and one per batch and
  point of `x`. The lines after the region drop the unit axis of each, sum each over its 4096 points from zero,
  divide by 4096 and add the two quotients: the mean of the second array plus the mean of the first, which is
  `Chamfer.meanPair` of the two arrays with the unit axis dropped. Nothing here looks inside the sums or the
  quotients: both sides are the same operations applied to the same arrays.

  Dropping the unit axis moves no element: entry `(b, q)` of the result is entry `(b, 0, q)` of the array.
-/
import proofs.«117512_j83442624626996_2_alg».proof.Proof.Gen.KernelIdeal.Frame
import proofs.«117512_j83442624626996_2_alg».proof.Proof.Spec
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.SL.Sem
  Idealize.ShloMosaic.StableHlo Idealize.ShloMosaic.ValueIdx

/-! ## Dropping the middle unit axis -/

/-- An array of shape [8, 1, 4096] recast to [8, 4096], read at `(b, q)`, is the array at `(b, 0, q)`: both sit at
    position `b · 4096 + q` in row-major order. -/
theorem dropUnit_apply {α : Type} (o : S8x1x4096.Idx → α) (b : Fin 8) (q : Fin 4096) :
    shapeCast S8x4096 o shapeCasts_S8x1x4096_S8x4096 (ix2 b q) = o (ix3 b (0 : Fin 1) q) :=
  shapeCast_apply o _ _ _ (by
    rw [Shape.rowMajor_val_three, Shape.rowMajor_val_two]
    show (b.val * 1 + 0) * 4096 + q.val = b.val * 4096 + q.val
    rw [Nat.mul_one, Nat.add_zero])

variable (m : (ℓ : Loc nD τ sig) → Buf (Elt Ideal) ℓ) (ρ : Dev nD → PrngReg)

/-! ## The region's two output arrays, as the later lines find them -/

/-- After the region the first output array holds what the region's last write-back left there. -/
theorem firstOutput_after (c : Dev nD) :
    Pipeline.withArrays (cfgs 0).spec c (V0 m c) (fun w => (dats m 0 c).arrAt w (cfgs 0).N) (Proc.devRef .tc main_v0_0)
      = (dats m 0 c).arrAt 2 cfg0.N :=
  Pipeline.withArrays_arr spec0 launch0.win.arr_inj c _ _ 2

/-- The same for the second output array. -/
theorem secondOutput_after (c : Dev nD) :
    Pipeline.withArrays (cfgs 0).spec c (V0 m c) (fun w => (dats m 0 c).arrAt w (cfgs 0).N) (Proc.devRef .tc main_v0_1)
      = (dats m 0 c).arrAt 3 cfg0.N :=
  Pipeline.withArrays_arr spec0 launch0.win.arr_inj c _ _ 3

/-! ## The result -/

/-- The thirteen lines after the region leave in the result the mean of the second output array plus the mean of the
    first, each with its unit axis dropped. -/
theorem result_after (c : Dev nD) :
    Pipeline.afterTail₀ cfgs (dats m) 0 (V0 m) [hostOps1] c main_v9
      = Chamfer.meanPair reducesTo_S8x4096_S8_d1 h_S_ bcast_S_S8
          (shapeCast S8x4096 ((dats m 0 c).arrAt 3 cfg0.N) shapeCasts_S8x1x4096_S8x4096)
          (shapeCast S8x4096 ((dats m 0 c).arrAt 2 cfg0.N) shapeCasts_S8x1x4096_S8x4096) := by
  unfold Pipeline.afterTail₀
  show StableHlo.after hostOps1 _ (Proc.devRef .tc main_v9) = _
  after_results
  rw [firstOutput_after, secondOutput_after]
  rfl

/-- The result buffer is none of the region's four arrays, and it outlives the region. -/
theorem result_bypasses : main_v9 ∈ Pipeline.restRefs sig (cfgs 0).spec :=
  Pipeline.mem_restRefs_of main_v9 rfl (by decide)

/-- The whole program's run, given what the region's two output arrays hold after its last point (`o1` per point of
    `y`, `o2` per point of `x`): every weakly fair execution terminates with the result at the mean of `o2` plus the
    mean of `o1`, unit axes dropped, and the two argument arrays as they were. -/
theorem run_of_finals (o1 : (c : Dev nD) → Buf (Elt Ideal) ((c : Thread nD τ).loc main_v0_0))
    (o2 : (c : Dev nD) → Buf (Elt Ideal) ((c : Thread nD τ).loc main_v0_1))
    (h2 : ∀ c, (dats m 0 c).arrAt 2 cfg0.N = o1 c) (h3 : ∀ c, (dats m 0 c).arrAt 3 cfg0.N = o2 c) :
    θ_run defs (onTc (τ := τ) (main (F := Ideal))) ⟨m, fun _ => 0, ρ⟩ fun r => ∀ c : Dev nD,
      r.2.mem ((c : Thread nD τ).loc main_v9)
          = Chamfer.meanPair reducesTo_S8x4096_S8_d1 h_S_ bcast_S_S8
              (shapeCast S8x4096 (o2 c) shapeCasts_S8x1x4096_S8x4096)
              (shapeCast S8x4096 (o1 c) shapeCasts_S8x1x4096_S8x4096)
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun r h c =>
    ⟨((h c).2 main_v9 result_bypasses).trans ((result_after m c).trans (by rw [h2 c, h3 c])),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Tail

end
-- ==== Proof.KernelValue.lean ====
/-
  The kernel's run, read: each batch's loss as the mean over the points of `x` of the distance to their nearest point of
  `y` plus the mean over the points of `y` of the distance to their nearest point of `x`.

  The region leaves the two arrays of distances; the operations after it view each [8, 1, 4096] array as [8, 4096] — entry
  `(b, q)` is entry `(b, 0, q)` — and take the two means and their sum.
-/
import proofs.«117512_j83442624626996_2_alg».proof.Proof.KernelArrays
import proofs.«117512_j83442624626996_2_alg».proof.Proof.KernelTail

noncomputable section

open Idealize.ShloMosaic Idealize.ShloMosaic.TcCoe Idealize.SL.Sem Idealize.ShloMosaic.ValueIdx

namespace Cert.KernelIdeal.HandValue

open Cert.KernelIdeal Cert.KernelIdeal.Gen Chamfer

variable (m : (ℓ : Loc nD τ sig) → Buf (Elt Ideal) ℓ) (ρ : Dev nD → PrngReg)

/-- The first array viewed as [8, 4096] is the table of distances from the points of `y` to their nearest point of `x`. -/
theorem minsX_eq (c : Dev nD) :
    shapeCast S8x4096 (Arrays.o1 m c) shapeCasts_S8x1x4096_S8x4096
      = minsX (m ((c : Thread nD τ).loc main_arg0)) (m ((c : Thread nD τ).loc main_arg1)) := by
  funext p
  obtain ⟨b, q, rfl⟩ : ∃ (b : Fin 8) (q : Fin 4096), p = ix2 b q := ⟨p 0, p 1, eq_ix2 p⟩
  rw [Tail.dropUnit_apply]
  rfl

/-- The second array viewed as [8, 4096] is the table of distances from the points of `x` to their nearest point of `y`. -/
theorem minsY_eq (c : Dev nD) :
    shapeCast S8x4096 (Arrays.o2 m c) shapeCasts_S8x1x4096_S8x4096
      = minsY (m ((c : Thread nD τ).loc main_arg0)) (m ((c : Thread nD τ).loc main_arg1)) := by
  funext p
  obtain ⟨b, q, rfl⟩ : ∃ (b : Fin 8) (q : Fin 4096), p = ix2 b q := ⟨p 0, p 1, eq_ix2 p⟩
  rw [Tail.dropUnit_apply]
  rfl

/-- Every weakly fair execution of the kernel's program terminates with the result at the mean of the one table plus the
    mean of the other, and the two clouds unchanged. -/
theorem run : θ_run defs (onTc (τ := τ) (main (F := Ideal))) ⟨m, fun _ => 0, ρ⟩ fun r => ∀ c : Dev nD,
      r.2.mem ((c : Thread nD τ).loc main_v9)
          = meanPair reducesTo_S8x4096_S8_d1 h_S_ bcast_S_S8
              (minsY (m ((c : Thread nD τ).loc main_arg0)) (m ((c : Thread nD τ).loc main_arg1)))
              (minsX (m ((c : Thread nD τ).loc main_arg0)) (m ((c : Thread nD τ).loc main_arg1)))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun r h c => ⟨(h c).1.trans (by rw [minsY_eq m c, minsX_eq m c]), (h c).2⟩)
    (Tail.run_of_finals m ρ (Arrays.o1 m) (Arrays.o2 m) (Arrays.final1 m) (Arrays.final2 m))

end Cert.KernelIdeal.HandValue
end
-- ==== Proof.lean ====
/-
  The Chamfer loss between two clouds `x` and `y` of 4096 points in three dimensions, eight batches at once: per batch, the
  mean over the points of `x` of the distance to their nearest point of `y`, plus the mean over the points of `y` of the
  distance to their nearest point of `x`, where the distance belonging to a squared distance `s` is `√(ε + max s 0)`.

  The kernel walks the 4096 × 4096 table of squared distances of a batch group tile by tile. A tile's entry is
  `(y₀ - x₀)² + (y₁ - x₁)² + (y₂ - x₂)²`; the kernel keeps the least entry of each row and of each column seen so far,
  and only when a row (a column) is complete does it clamp, shift and take the root. The reference expands the square,
  `|y|² + |x|² - 2 ⟨y, x⟩`, clamps, shifts and takes the root of all 4096 × 4096 entries, and then takes the least of each
  row and of each column. Two laws make these the same numbers on the extended reals:

  * over the REAL numbers the two forms of the squared distance are one polynomial identity; at an infinite coordinate
    they are not (`∞ - ∞`), so this is where the precondition — every input entry a real number — is used;
  * `s ↦ √(ε + max s 0)` is monotone on every extended real, and a monotone map of a linear order carries the least of
    finitely many values to the least of their images: the root may be taken before or after the minimum.

  Both runs are stated with one and the same result term, `Chamfer.meanPair (Chamfer.minsY x y) (Chamfer.minsX x y)`
  (Proof/Spec.lean). The kernel's side is Proof/KernelValue.lean: the body's five cases read back as values
  (Proof/CaseValues.lean), a tile entry by entry (Proof/TileMath.lean), the two running minima by induction over the 128
  grid points (Proof/Accumulate.lean), the two arrays the region leaves (Proof/KernelArrays.lean) and the operations after
  it (Proof/KernelTail.lean). The reference's side is Proof/RefValue.lean over the generated run, read one operation at a
  time (Proof/RefDistance.lean, Proof/RefMins.lean); that the precondition makes every entry real is
  Proof/FiniteInputs.lean. The three frames are the generated ones; the kernel's idealization rewrote no operation.
-/
import proofs.«117512_j83442624626996_2_alg».proof.Defs
import proofs.«117512_j83442624626996_2_alg».proof.Proof.Gen.Kernel
import proofs.«117512_j83442624626996_2_alg».proof.Proof.Gen.Kernel.Frame
import proofs.«117512_j83442624626996_2_alg».proof.Proof.Gen.KernelIdeal
import proofs.«117512_j83442624626996_2_alg».proof.Proof.Gen.KernelIdeal.Frame
import proofs.«117512_j83442624626996_2_alg».proof.Proof.Gen.ReferenceIdeal
import proofs.«117512_j83442624626996_2_alg».proof.Proof.Gen.Pre_finite_inputs
import proofs.«117512_j83442624626996_2_alg».proof.Proof.Gen.ReferenceIdeal.Run
import proofs.«117512_j83442624626996_2_alg».proof.Proof.Gen.ReferenceIdeal.Read
import proofs.«117512_j83442624626996_2_alg».proof.Proof.FiniteInputs
import proofs.«117512_j83442624626996_2_alg».proof.Proof.RefValue
import proofs.«117512_j83442624626996_2_alg».proof.Proof.KernelValue
import Idealize.ShloMosaic.Adequacy
import Idealize.ShloMosaic.Init

noncomputable section

open Idealize.ShloMosaic Idealize.ShloMosaic.TcCoe Idealize.SL.Sem

namespace Cert.Proof

/-- The kernel as printed runs and leaves the two clouds as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves the two clouds as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the two clouds, every entry of which is a real number, the kernel and the reference both
    end at the mean over the points of `x` of the distance to their nearest point of `y` plus the mean over the points of
    `y` of the distance to their nearest point of `x`. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Chamfer.Finite.real_of_pre _ _ (hpre c)
  rw [Cert.ReferenceIdeal.Read.val_main_v26_eq, (hagree c).1, (hagree c).2]
  exact Chamfer.Ref.ref_is_spec_of _ _ hx hy _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
